-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x1000000 32) (main_arg2 : FVec F S1000000 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S1x1000000 : Shape := ⟨2, ![1, 1000000]⟩
abbrev S_ : Shape := ⟨0, ![]⟩
abbrev S50000 : Shape := ⟨1, ![50000]⟩
abbrev S1000000x1 : Shape := ⟨2, ![1000000, 1]⟩
abbrev S1000000x64 : Shape := ⟨2, ![1000000, 64]⟩
abbrev S1x64 : Shape := ⟨2, ![1, 64]⟩
abbrev S10000x64 : Shape := ⟨2, ![10000, 64]⟩
abbrev S10000x1 : Shape := ⟨2, ![10000, 1]⟩
abbrev S50000x1 : Shape := ⟨2, ![50000, 1]⟩

abbrev nBuf : Space → Nat
  | .hbm => 179
  | .vmem => 26
  | .smem => 0
  | _ => 0

abbrev hbmTy0_0 (i : Nat) : BufTy := match i % 128 with
  | 0 => ⟨S50000x64, .f32⟩
  | 1 => ⟨S2x1000000, .i32⟩
  | 2 => ⟨S1000000, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S1x1000000, .i32⟩
  | 12 => ⟨S1000000, .i32⟩
  | 13 => ⟨S1x1000000, .i32⟩
  | 14 => ⟨S1000000, .i32⟩
  | 15 => ⟨S_, .f32⟩
  | 16 => ⟨S1000000, .f32⟩
  | 17 => ⟨S1000000, .f32⟩
  | 18 => ⟨S1000000, .f32⟩
  | 19 => ⟨S1000000, .f32⟩
  | 20 => ⟨S_, .f32⟩
  | 21 => ⟨S1000000, .f32⟩
  | 22 => ⟨S1000000, .f32⟩
  | 23 => ⟨S_, .f32⟩
  | 24 => ⟨S1000000, .f32⟩
  | 25 => ⟨S1000000, .f32⟩
  | 26 => ⟨S_, .f32⟩
  | 27 => ⟨S1000000, .f32⟩
  | 28 => ⟨S1000000, .f32⟩
  | 29 => ⟨S_, .f32⟩
  | 30 => ⟨S50000, .f32⟩
  | 31 => ⟨S1000000x1, .i32⟩
  | 32 => ⟨S50000, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .i1⟩
  | 39 => ⟨S_, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000, .f32⟩
  | 64 => ⟨S1000000, .f32⟩
  | 65 => ⟨S1000000, .f32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x64, .f32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x64, .f32⟩
  | 84 => ⟨S1000000x1, .f32⟩
  | 85 => ⟨S1000000x1, .f32⟩
  | 86 => ⟨S1x64, .f32⟩
  | 87 => ⟨S1000000x64, .f32⟩
  | 88 => ⟨S_, .f32⟩
  | 89 => ⟨S50000x64, .f32⟩
  | 90 => ⟨S1000000x1, .i32⟩
  | 91 => ⟨S50000x64, .f32⟩
  | 92 => ⟨S50000, .f32⟩
  | 93 => ⟨S50000x1, .f32⟩
  | 94 => ⟨S50000x64, .f32⟩
  | 95 => ⟨S50000x64, .f32⟩
  | 96 => ⟨S50000x64, .f32⟩
  | 97 => ⟨S50000x64, .f32⟩
  | 98 => ⟨S1x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S_, .f32⟩
  | 105 => ⟨S1000000, .f32⟩
  | 106 => ⟨S1000000, .f32⟩
  | 107 => ⟨S_, .f32⟩
  | 108 => ⟨S50000, .f32⟩
  | 109 => ⟨S1000000x1, .i32⟩
  | 110 => ⟨S50000, .f32⟩
  | 111 => ⟨S_, .f32⟩
  | 112 => ⟨S50000, .f32⟩
  | 113 => ⟨S50000, .f32⟩
  | 114 => ⟨S_, .f32⟩
  | 115 => ⟨S50000, .f32⟩
  | 116 => ⟨S50000, .i1⟩
  | 117 => ⟨S_, .f32⟩
  | 118 => ⟨S50000, .f32⟩
  | 119 => ⟨S50000, .f32⟩
  | 120 => ⟨S_, .f32⟩
  | 121 => ⟨S_, .f32⟩
  | 122 => ⟨S50000, .f32⟩
  | 123 => ⟨S50000, .f32⟩
  | 124 => ⟨S_, .i32⟩
  | 125 => ⟨S1000000, .i32⟩
  | 126 => ⟨S1000000, .i1⟩
  | 127 => ⟨S_, .i32⟩
  | _ => ⟨S50000x64, .f32⟩

abbrev hbmTy0_1 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000, .f32⟩
  | 14 => ⟨S1000000, .f32⟩
  | 15 => ⟨S1000000, .f32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x64, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x64, .f32⟩
  | 34 => ⟨S1000000x1, .f32⟩
  | 35 => ⟨S1000000x1, .f32⟩
  | 36 => ⟨S1x64, .f32⟩
  | 37 => ⟨S1000000x64, .f32⟩
  | 38 => ⟨S_, .f32⟩
  | 39 => ⟨S50000x64, .f32⟩
  | 40 => ⟨S1000000x1, .i32⟩
  | 41 => ⟨S50000x64, .f32⟩
  | 42 => ⟨S50000, .f32⟩
  | 43 => ⟨S50000x1, .f32⟩
  | 44 => ⟨S50000x64, .f32⟩
  | 45 => ⟨S50000x64, .f32⟩
  | 46 => ⟨S50000x64, .f32⟩
  | 47 => ⟨S50000x64, .f32⟩
  | 48 => ⟨S1x64, .f32⟩
  | 49 => ⟨S50000x64, .f32⟩
  | 50 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S10000x1, .f32⟩
  | .local _ .vmem, ⟨7, _⟩ => ⟨S10000x1, .f32⟩
  | .local _ .vmem, ⟨8, _⟩ => ⟨S64x64, .f32⟩
  | .local _ .vmem, ⟨9, _⟩ => ⟨S64x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x1, .f32⟩
  | .local _ .vmem, ⟨18, _⟩ => ⟨S10000x1, .f32⟩
  | .local _ .vmem, ⟨19, _⟩ => ⟨S10000x1, .f32⟩
  | .local _ .vmem, ⟨20, _⟩ => ⟨S10000x1, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_c_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_9 : Ref sig .tc := ⟨.hbm, 55, rfl⟩
abbrev main_v31 : Ref sig .tc := ⟨.hbm, 56, rfl⟩
abbrev main_v32 : Ref sig .tc := ⟨.hbm, 57, rfl⟩
abbrev main_c_10 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_13 : Ref sig .tc := ⟨.hbm, 75, rfl⟩
abbrev main_v47 : Ref sig .tc := ⟨.hbm, 76, rfl⟩
abbrev main_v48 : Ref sig .tc := ⟨.hbm, 77, rfl⟩
abbrev main_c_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_15 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call1_cst : Ref sig .tc := ⟨.hbm, 101, rfl⟩
abbrev main_call1_v0 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_cst_17 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_18 : Ref sig .tc := ⟨.hbm, 111, rfl⟩
abbrev main_v76 : Ref sig .tc := ⟨.hbm, 112, rfl⟩
abbrev main_v77 : Ref sig .tc := ⟨.hbm, 113, rfl⟩
abbrev main_cst_19 : Ref sig .tc := ⟨.hbm, 114, rfl⟩
abbrev main_v78 : Ref sig .tc := ⟨.hbm, 115, rfl⟩
abbrev main_v79 : Ref sig .tc := ⟨.hbm, 116, rfl⟩
abbrev main_cst_20 : Ref sig .tc := ⟨.hbm, 117, rfl⟩
abbrev main_v80 : Ref sig .tc := ⟨.hbm, 118, rfl⟩
abbrev main_v81 : Ref sig .tc := ⟨.hbm, 119, rfl⟩
abbrev main_cst_21 : Ref sig .tc := ⟨.hbm, 120, rfl⟩
abbrev main_call2_v0 : Ref sig .tc := ⟨.hbm, 121, rfl⟩
abbrev main_call2_v1 : Ref sig .tc := ⟨.hbm, 122, rfl⟩
abbrev main_v82 : Ref sig .tc := ⟨.hbm, 123, rfl⟩
abbrev main_c_22 : Ref sig .tc := ⟨.hbm, 124, rfl⟩
abbrev main_v83 : Ref sig .tc := ⟨.hbm, 125, rfl⟩
abbrev main_v84 : Ref sig .tc := ⟨.hbm, 126, rfl⟩
abbrev main_c_23 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_c_24 : Ref sig .tc := ⟨.hbm, 133, rfl⟩
abbrev main_v90 : Ref sig .tc := ⟨.hbm, 134, rfl⟩
abbrev main_v91 : Ref sig .tc := ⟨.hbm, 135, rfl⟩
abbrev main_c_25 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_c_26 : Ref sig .tc := ⟨.hbm, 144, rfl⟩
abbrev main_v99 : Ref sig .tc := ⟨.hbm, 145, rfl⟩
abbrev main_v100 : Ref sig .tc := ⟨.hbm, 146, rfl⟩
abbrev main_c_27 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_c_28 : Ref sig .tc := ⟨.hbm, 153, rfl⟩
abbrev main_v106 : Ref sig .tc := ⟨.hbm, 154, rfl⟩
abbrev main_v107 : Ref sig .tc := ⟨.hbm, 155, rfl⟩
abbrev main_c_29 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_30 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  shapeCasts_S1000000_S1000000x1 : S1000000.ShapeCasts S1000000x1
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S10000x1_S10000x64 : S10000x1.Broadcasts S10000x64
  broadcasts_S1x64_S10000x64 : S1x64.Broadcasts S10000x64
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  gather_S50000x64_S1000000x1_S1000000x64_1_0_n_n_0_1_164_wf : GatherDims.WF S50000x64 S1000000x1 S1000000x64 [1] [0] [] [0] [] 1 ![1, 64]
  dot_S10000x64_S64x64_S10000x64_1_0_0_1_n_n_wf : DotDims.WF S10000x64 S64x64 S10000x64 [1] [0] [0] [1] [] []
  scatter_S50000x64_S1000000x1_S1000000x64_1_0_0_1_wf : ScatterDims.WF S50000x64 S1000000x1 S1000000x64 [1] [0] [0] 1
  dot_S50000x64_S64x64_S50000x64_1_0_0_1_n_n_wf : DotDims.WF S50000x64 S64x64 S50000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1000000x64.size a
  hwx0_1 : ∀ i : grid0.Coords, EltTy.bits .f32 = 32 ∨ (Rect.block (s := S1000000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S1000000x1.size a
  hwx0_2 : ∀ i : grid0.Coords, EltTy.bits .f32 = 32 ∨ (Rect.block (s := S1000000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S1000000x1.size a
  hwx0_3 : ∀ i : grid0.Coords, EltTy.bits .f32 = 32 ∨ (Rect.block (s := S1000000x1) S10000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S1000000x64.size a
  hwx0_7 : ∀ i : grid0.Coords, EltTy.bits .f32 = 32 ∨ (Rect.block (s := S1000000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1000000x64.size a
  hwx1_1 : ∀ i : grid1.Coords, EltTy.bits .f32 = 32 ∨ (Rect.block (s := S1000000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S1000000x1.size a
  hwx1_2 : ∀ i : grid1.Coords, EltTy.bits .f32 = 32 ∨ (Rect.block (s := S1000000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S1000000x1.size a
  hwx1_3 : ∀ i : grid1.Coords, EltTy.bits .f32 = 32 ∨ (Rect.block (s := S1000000x1) S10000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S1000000x64.size a
  hwx1_7 : ∀ i : grid1.Coords, EltTy.bits .f32 = 32 ∨ (Rect.block (s := S1000000x64) S10000x64.size (cc1_transform_7 i) (hinb1_7 i)).WholeWords (EltTy.packing .f32)

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

abbrev win0_0 : Pipeline.Window sig grid0 :=
  Pipeline.Window.ofSpec (Memref.whole main_v46) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v55) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v56) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v57) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v105) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v112) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v113) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v114) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v115) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v116) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S1x1000000 : Shape := ⟨2, ![1, 1000000]⟩
abbrev S_ : Shape := ⟨0, ![]⟩
abbrev S50000 : Shape := ⟨1, ![50000]⟩
abbrev S1050000 : Shape := ⟨1, ![1050000]⟩
abbrev S1050000x1 : Shape := ⟨2, ![1050000, 1]⟩
abbrev S1050000x64 : Shape := ⟨2, ![1050000, 64]⟩
abbrev S1x64 : Shape := ⟨2, ![1, 64]⟩
abbrev S1000000x1 : Shape := ⟨2, ![1000000, 1]⟩
abbrev S1000000x64 : Shape := ⟨2, ![1000000, 64]⟩

abbrev nBuf : Space → Nat
  | .hbm => 216
  | .vmem => 0
  | .smem => 0
  | _ => 0

abbrev hbmTy0_0 (i : Nat) : BufTy := match i % 128 with
  | 0 => ⟨S50000x64, .f32⟩
  | 1 => ⟨S2x1000000, .i32⟩
  | 2 => ⟨S1000000, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S1x1000000, .i32⟩
  | 12 => ⟨S1000000, .i32⟩
  | 13 => ⟨S1x1000000, .i32⟩
  | 14 => ⟨S1000000, .i32⟩
  | 15 => ⟨S_, .f32⟩
  | 16 => ⟨S1000000, .f32⟩
  | 17 => ⟨S1000000, .f32⟩
  | 18 => ⟨S1000000, .f32⟩
  | 19 => ⟨S1000000, .f32⟩
  | 20 => ⟨S_, .f32⟩
  | 21 => ⟨S1000000, .f32⟩
  | 22 => ⟨S1000000, .f32⟩
  | 23 => ⟨S_, .f32⟩
  | 24 => ⟨S1000000, .f32⟩
  | 25 => ⟨S1000000, .f32⟩
  | 26 => ⟨S_, .f32⟩
  | 27 => ⟨S1000000, .f32⟩
  | 28 => ⟨S1000000, .f32⟩
  | 29 => ⟨S50000, .i32⟩
  | 30 => ⟨S1050000, .i32⟩
  | 31 => ⟨S1050000, .i32⟩
  | 32 => ⟨S_, .f32⟩
  | 33 => ⟨S50000, .f32⟩
  | 34 => ⟨S1050000, .f32⟩
  | 35 => ⟨S_, .f32⟩
  | 36 => ⟨S50000, .f32⟩
  | 37 => ⟨S1050000x1, .i32⟩
  | 38 => ⟨S50000, .f32⟩
  | 39 => ⟨S_, .f32⟩
  | 40 => ⟨S50000, .f32⟩
  | 41 => ⟨S50000, .i1⟩
  | 42 => ⟨S_, .f32⟩
  | 43 => ⟨S50000, .f32⟩
  | 44 => ⟨S50000, .f32⟩
  | 45 => ⟨S_, .f32⟩
  | 46 => ⟨S_, .f32⟩
  | 47 => ⟨S50000, .f32⟩
  | 48 => ⟨S50000, .f32⟩
  | 49 => ⟨S_, .i32⟩
  | 50 => ⟨S1050000, .i32⟩
  | 51 => ⟨S1050000, .i1⟩
  | 52 => ⟨S_, .i32⟩
  | 53 => ⟨S1050000, .i32⟩
  | 54 => ⟨S1050000, .i32⟩
  | 55 => ⟨S1050000, .i32⟩
  | 56 => ⟨S1050000x1, .i32⟩
  | 57 => ⟨S1050000, .f32⟩
  | 58 => ⟨S1050000, .f32⟩
  | 59 => ⟨S_, .i32⟩
  | 60 => ⟨S1050000, .i32⟩
  | 61 => ⟨S1050000, .i1⟩
  | 62 => ⟨S_, .i32⟩
  | 63 => ⟨S1050000, .i32⟩
  | 64 => ⟨S1050000, .i32⟩
  | 65 => ⟨S1050000, .i32⟩
  | 66 => ⟨S1050000x1, .i32⟩
  | 67 => ⟨S1050000, .f32⟩
  | 68 => ⟨S1050000, .f32⟩
  | 69 => ⟨S50000x64, .f32⟩
  | 70 => ⟨S1050000x1, .f32⟩
  | 71 => ⟨S_, .i32⟩
  | 72 => ⟨S1050000, .i32⟩
  | 73 => ⟨S1050000, .i1⟩
  | 74 => ⟨S_, .i32⟩
  | 75 => ⟨S1050000, .i32⟩
  | 76 => ⟨S1050000, .i32⟩
  | 77 => ⟨S1050000, .i32⟩
  | 78 => ⟨S1050000x1, .i32⟩
  | 79 => ⟨S1050000x64, .f32⟩
  | 80 => ⟨S1050000x64, .f32⟩
  | 81 => ⟨S1050000x64, .f32⟩
  | 82 => ⟨S_, .f32⟩
  | 83 => ⟨S50000x64, .f32⟩
  | 84 => ⟨S1050000x1, .i32⟩
  | 85 => ⟨S50000x64, .f32⟩
  | 86 => ⟨S1x64, .f32⟩
  | 87 => ⟨S50000x64, .f32⟩
  | 88 => ⟨S50000x64, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x64, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x64, .f32⟩
  | 107 => ⟨S1000000x64, .f32⟩
  | 108 => ⟨S1000000x64, .f32⟩
  | 109 => ⟨S1000000x1, .f32⟩
  | 110 => ⟨S1000000x64, .f32⟩
  | 111 => ⟨S1x64, .f32⟩
  | 112 => ⟨S1000000x64, .f32⟩
  | 113 => ⟨S1000000x64, .f32⟩
  | 114 => ⟨S1000000x64, .f32⟩
  | 115 => ⟨S1000000x64, .f32⟩
  | 116 => ⟨S_, .f32⟩
  | 117 => ⟨S50000x64, .f32⟩
  | 118 => ⟨S1000000x1, .i32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S50000, .i32⟩
  | 125 => ⟨S1050000, .i32⟩
  | 126 => ⟨S1050000, .i32⟩
  | 127 => ⟨S_, .f32⟩
  | _ => ⟨S50000x64, .f32⟩

abbrev hbmTy0_1 (i : Nat) : BufTy := match i % 128 with
  | 0 => ⟨S50000, .f32⟩
  | 1 => ⟨S1050000, .f32⟩
  | 2 => ⟨S_, .f32⟩
  | 3 => ⟨S50000, .f32⟩
  | 4 => ⟨S1050000x1, .i32⟩
  | 5 => ⟨S50000, .f32⟩
  | 6 => ⟨S_, .f32⟩
  | 7 => ⟨S50000, .f32⟩
  | 8 => ⟨S50000, .i1⟩
  | 9 => ⟨S_, .f32⟩
  | 10 => ⟨S50000, .f32⟩
  | 11 => ⟨S50000, .f32⟩
  | 12 => ⟨S_, .f32⟩
  | 13 => ⟨S_, .f32⟩
  | 14 => ⟨S50000, .f32⟩
  | 15 => ⟨S50000, .f32⟩
  | 16 => ⟨S_, .i32⟩
  | 17 => ⟨S1050000, .i32⟩
  | 18 => ⟨S1050000, .i1⟩
  | 19 => ⟨S_, .i32⟩
  | 20 => ⟨S1050000, .i32⟩
  | 21 => ⟨S1050000, .i32⟩
  | 22 => ⟨S1050000, .i32⟩
  | 23 => ⟨S1050000x1, .i32⟩
  | 24 => ⟨S1050000, .f32⟩
  | 25 => ⟨S1050000, .f32⟩
  | 26 => ⟨S_, .i32⟩
  | 27 => ⟨S1050000, .i32⟩
  | 28 => ⟨S1050000, .i1⟩
  | 29 => ⟨S_, .i32⟩
  | 30 => ⟨S1050000, .i32⟩
  | 31 => ⟨S1050000, .i32⟩
  | 32 => ⟨S1050000, .i32⟩
  | 33 => ⟨S1050000x1, .i32⟩
  | 34 => ⟨S1050000, .f32⟩
  | 35 => ⟨S1050000, .f32⟩
  | 36 => ⟨S50000x64, .f32⟩
  | 37 => ⟨S1050000x1, .f32⟩
  | 38 => ⟨S_, .i32⟩
  | 39 => ⟨S1050000, .i32⟩
  | 40 => ⟨S1050000, .i1⟩
  | 41 => ⟨S_, .i32⟩
  | 42 => ⟨S1050000, .i32⟩
  | 43 => ⟨S1050000, .i32⟩
  | 44 => ⟨S1050000, .i32⟩
  | 45 => ⟨S1050000x1, .i32⟩
  | 46 => ⟨S1050000x64, .f32⟩
  | 47 => ⟨S1050000x64, .f32⟩
  | 48 => ⟨S1050000x64, .f32⟩
  | 49 => ⟨S_, .f32⟩
  | 50 => ⟨S50000x64, .f32⟩
  | 51 => ⟨S1050000x1, .i32⟩
  | 52 => ⟨S50000x64, .f32⟩
  | 53 => ⟨S1x64, .f32⟩
  | 54 => ⟨S50000x64, .f32⟩
  | 55 => ⟨S50000x64, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x64, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x64, .f32⟩
  | 74 => ⟨S1000000x64, .f32⟩
  | 75 => ⟨S1000000x64, .f32⟩
  | 76 => ⟨S1000000x1, .f32⟩
  | 77 => ⟨S1000000x64, .f32⟩
  | 78 => ⟨S1x64, .f32⟩
  | 79 => ⟨S1000000x64, .f32⟩
  | 80 => ⟨S1000000x64, .f32⟩
  | 81 => ⟨S1000000x64, .f32⟩
  | 82 => ⟨S1000000x64, .f32⟩
  | 83 => ⟨S_, .f32⟩
  | 84 => ⟨S50000x64, .f32⟩
  | 85 => ⟨S1000000x1, .i32⟩
  | 86 => ⟨S50000x64, .f32⟩
  | 87 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_call0_v0 : Ref sig .tc := ⟨.hbm, 46, rfl⟩
abbrev main_call0_v1 : Ref sig .tc := ⟨.hbm, 47, rfl⟩
abbrev main_v26 : Ref sig .tc := ⟨.hbm, 48, rfl⟩
abbrev main_c : Ref sig .tc := ⟨.hbm, 49, rfl⟩
abbrev main_v27 : Ref sig .tc := ⟨.hbm, 50, rfl⟩
abbrev main_v28 : Ref sig .tc := ⟨.hbm, 51, rfl⟩
abbrev main_c_8 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_14 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_16 : Ref sig .tc := ⟨.hbm, 98, rfl⟩
abbrev main_v67 : Ref sig .tc := ⟨.hbm, 99, rfl⟩
abbrev main_v68 : Ref sig .tc := ⟨.hbm, 100, rfl⟩
abbrev main_c_17 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_call1_cst : Ref sig .tc := ⟨.hbm, 121, rfl⟩
abbrev main_call1_v0 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_19 : Ref sig .tc := ⟨.hbm, 127, rfl⟩
abbrev main_v91 : Ref sig .tc := ⟨.hbm, 128, rfl⟩
abbrev main_v92 : Ref sig .tc := ⟨.hbm, 129, rfl⟩
abbrev main_cst_20 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_21 : Ref sig .tc := ⟨.hbm, 134, rfl⟩
abbrev main_v96 : Ref sig .tc := ⟨.hbm, 135, rfl⟩
abbrev main_v97 : Ref sig .tc := ⟨.hbm, 136, rfl⟩
abbrev main_cst_22 : Ref sig .tc := ⟨.hbm, 137, rfl⟩
abbrev main_v98 : Ref sig .tc := ⟨.hbm, 138, rfl⟩
abbrev main_v99 : Ref sig .tc := ⟨.hbm, 139, rfl⟩
abbrev main_cst_23 : Ref sig .tc := ⟨.hbm, 140, rfl⟩
abbrev main_call2_v0 : Ref sig .tc := ⟨.hbm, 141, rfl⟩
abbrev main_call2_v1 : Ref sig .tc := ⟨.hbm, 142, rfl⟩
abbrev main_v100 : Ref sig .tc := ⟨.hbm, 143, rfl⟩
abbrev main_c_24 : Ref sig .tc := ⟨.hbm, 144, rfl⟩
abbrev main_v101 : Ref sig .tc := ⟨.hbm, 145, rfl⟩
abbrev main_v102 : Ref sig .tc := ⟨.hbm, 146, rfl⟩
abbrev main_c_25 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_26 : Ref sig .tc := ⟨.hbm, 154, rfl⟩
abbrev main_v109 : Ref sig .tc := ⟨.hbm, 155, rfl⟩
abbrev main_v110 : Ref sig .tc := ⟨.hbm, 156, rfl⟩
abbrev main_c_27 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_c_28 : Ref sig .tc := ⟨.hbm, 166, rfl⟩
abbrev main_v119 : Ref sig .tc := ⟨.hbm, 167, rfl⟩
abbrev main_v120 : Ref sig .tc := ⟨.hbm, 168, rfl⟩
abbrev main_c_29 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_30 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_c_31 : Ref sig .tc := ⟨.hbm, 184, rfl⟩
abbrev main_v134 : Ref sig .tc := ⟨.hbm, 185, rfl⟩
abbrev main_v135 : Ref sig .tc := ⟨.hbm, 186, rfl⟩
abbrev main_c_32 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_c_33 : Ref sig .tc := ⟨.hbm, 193, rfl⟩
abbrev main_v141 : Ref sig .tc := ⟨.hbm, 194, rfl⟩
abbrev main_v142 : Ref sig .tc := ⟨.hbm, 195, rfl⟩
abbrev main_c_34 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_35 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  concatenates_S1000000_S50000_S1050000_d0 : Shape.Concatenates [S1000000, S50000] S1050000 0
  bcast_S_S50000 : S_.BroadcastsInDim S50000 (![] : Fin 0 → Fin S50000.rank)
  bcast_S1050000_S1050000x1_0 : S1050000.BroadcastsInDim S1050000x1 (![0] : Fin 1 → Fin S1050000x1.rank)
  bcast_S_S1050000 : S_.BroadcastsInDim S1050000 (![] : Fin 0 → Fin S1050000.rank)
  bcast_S1050000x1_S1050000x64_0_1 : S1050000x1.BroadcastsInDim S1050000x64 (![0, 1] : Fin 2 → Fin S1050000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1000000_S1000000x1_0 : S1000000.BroadcastsInDim S1000000x1 (![0] : Fin 1 → Fin S1000000x1.rank)
  bcast_S1x64_S1000000x64_0_1 : S1x64.BroadcastsInDim S1000000x64 (![0, 1] : Fin 2 → Fin S1000000x64.rank)
  bcast_S1000000x1_S1000000x64_0_1 : S1000000x1.BroadcastsInDim S1000000x64 (![0, 1] : Fin 2 → Fin S1000000x64.rank)
  scatter_S50000_S1050000x1_S1050000_n_0_0_1_wf : ScatterDims.WF S50000 S1050000x1 S1050000 [] [0] [0] 1
  gather_S50000_S1050000x1_S1050000_n_0_n_n_0_1_1_wf : GatherDims.WF S50000 S1050000x1 S1050000 [] [0] [] [0] [] 1 ![1]
  dot_S50000x64_S64x64_S50000x64_1_0_0_1_n_n_wf : DotDims.WF S50000x64 S64x64 S50000x64 [1] [0] [0] [1] [] []
  gather_S50000x64_S1050000x1_S1050000x64_1_0_n_n_0_1_164_wf : GatherDims.WF S50000x64 S1050000x1 S1050000x64 [1] [0] [] [0] [] 1 ![1, 64]
  scatter_S50000x64_S1050000x1_S1050000x64_1_0_0_1_wf : ScatterDims.WF S50000x64 S1050000x1 S1050000x64 [1] [0] [0] 1
  gather_S50000x64_S1000000x1_S1000000x64_1_0_n_n_0_1_164_wf : GatherDims.WF S50000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S50000x64_S1000000x1_S1000000x64_1_0_0_1_wf : ScatterDims.WF S50000x64 S1000000x1 S1000000x64 [1] [0] [0] 1

variable [Facts₀]

def scatter_S50000_S1050000x1_S1050000_n_0_0_1 : ScatterDims S50000 S1050000x1 S1050000 where
  updateWindowDims := []
  insertedWindowDims := [0]
  scatterDimsToOperandDims := [0]
  indexVectorDim := 1
  wf := scatter_S50000_S1050000x1_S1050000_n_0_0_1_wf
def gather_S50000_S1050000x1_S1050000_n_0_n_n_0_1_1 : GatherDims S50000 S1050000x1 S1050000 where
  offsetDims := []
  collapsedSliceDims := [0]
  operandBatchingDims := []
  startIndicesBatchingDims := []
  startIndexMap := [0]
  indexVectorDim := 1
  sliceSizes := ![1]
  wf := gather_S50000_S1050000x1_S1050000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1050000x1_S1050000x64_1_0_n_n_0_1_164 : GatherDims S50000x64 S1050000x1 S1050000x64 where
  offsetDims := [1]
  collapsedSliceDims := [0]
  operandBatchingDims := []
  startIndicesBatchingDims := []
  startIndexMap := [0]
  indexVectorDim := 1
  sliceSizes := ![1, 64]
  wf := gather_S50000x64_S1050000x1_S1050000x64_1_0_n_n_0_1_164_wf
def scatter_S50000x64_S1050000x1_S1050000x64_1_0_0_1 : ScatterDims S50000x64 S1050000x1 S1050000x64 where
  updateWindowDims := [1]
  insertedWindowDims := [0]
  scatterDimsToOperandDims := [0]
  indexVectorDim := 1
  wf := scatter_S50000x64_S1050000x1_S1050000x64_1_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf

class Facts : Prop extends Facts₀ where

variable [Facts]
-- ==== Proof.KernelRun.lean ====
/-
  The idealized kernel program's run WITH ITS RESULT NAMED.

  The program is host operations, an edge kernel over 100 tiles, host operations, the edge kernel again, host
  operations. Its generated frame follows the buffer contents through these eleven segments (W0 … W11: each host
  stretch rewrites the buffers its operations write, each kernel region leaves its output array at what the tiles
  wrote back) and concludes that the argument arrays end unchanged. The same run, read at one more buffer, says that
  the program's result ends at the last boundary's contents W11 of it. That is all this module adds: the launch over
  the segments is the frame's, and the final state is read at the result's buffer as well as at the arguments'.
-/
import proofs.«152795_j88356067213584_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result array at the last
    boundary's contents and the argument arrays as launched. -/
theorem run_result : θ_run defs (onTc (τ := τ) (main (F := F))) ⟨m, fun _ => 0, ρ⟩ (fun r => ∀ c : Dev nD,
      r.2.mem ((c.tc : Thread nD τ).loc main_v128) = W11 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v128 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.RunValue

end
-- ==== Proof.KDefs.lean ====
/-
  The kernel program's host-side stages of one layer, as functions of whole arrays.

  Both layers apply the same operations: the gate from the edge curvatures; the gated in-degree (a scatter-add of
  the gates at the edges' target words, plus one for the self loop) and its inverse square root where it is
  positive; per edge, the endpoints' feature rows and inverse roots gathered at the wrapped endpoint words, the
  normalisation weight and the hetero gate 1 − g as columns; and, after the edge kernel has produced the message
  array M, the scatter-add of the messages at the target words, the self loop dinv² · (x W), and the bias.
-/
import proofs.«152795_j88356067213584_1_alg».proof.Proof.Gen.KernelIdeal

noncomputable section

namespace Cert.KernelIdeal.KV

open Idealize.ShloMosaic Cert.KernelIdeal Cert.KernelIdeal.Gen

variable {F : FTy → Type} [FloatOps F]

/-- The edges' source words: row 0 of the edge list. -/
def row (x1 : (⟨S2x1000000, .i32⟩ : BufTy).Contents (Elt F)) : (⟨S1000000, .i32⟩ : BufTy).Contents (Elt F) :=
  shapeCast S1000000 (extractStridedSlice S1x1000000 ![0, 0] x1 slices_S2x1000000_S1x1000000_0_0) shapeCasts_S1x1000000_S1000000
/-- The edges' target words: row 1 of the edge list. -/
def col (x1 : (⟨S2x1000000, .i32⟩ : BufTy).Contents (Elt F)) : (⟨S1000000, .i32⟩ : BufTy).Contents (Elt F) :=
  shapeCast S1000000 (extractStridedSlice S1x1000000 ![1, 0] x1 slices_S2x1000000_S1x1000000_1_0) shapeCasts_S1x1000000_S1000000
/-- An array of target words as the index column of a scatter. -/
def col2 (c : (⟨S1000000, .i32⟩ : BufTy).Contents (Elt F)) : (⟨S1000000x1, .i32⟩ : BufTy).Contents (Elt F) :=
  broadcastInDim S1000000x1 ![0] bcast_S1000000_S1000000x1_0 c

/-- The edge gate: the logistic function of curvature / 5. -/
def gate (x2 : (⟨S1000000, .f32⟩ : BufTy).Contents (Elt F)) : (⟨S1000000, .f32⟩ : BufTy).Contents (Elt F) :=
  Host.divf (broadcastInDim S1000000 ![] bcast_S_S1000000 (constant S_ .f32 0x3F800000#32))
    (addf (broadcastInDim S1000000 ![] bcast_S_S1000000 (constant S_ .f32 0x3F800000#32))
      (Host.exp (Host.negf (Host.divf x2 (broadcastInDim S1000000 ![] bcast_S_S1000000 (constant S_ .f32 0x40A00000#32))))))
/-- The hetero gate 1 − g. -/
def ghet (g : (⟨S1000000, .f32⟩ : BufTy).Contents (Elt F)) : (⟨S1000000, .f32⟩ : BufTy).Contents (Elt F) :=
  subf (broadcastInDim S1000000 ![] bcast_S_S1000000 (constant S_ .f32 0x3F800000#32)) g

/-- The gated in-degree, the self loop's 1 added after the sum over the edges. -/
def deg (c : (⟨S1000000, .i32⟩ : BufTy).Contents (Elt F)) (g : (⟨S1000000, .f32⟩ : BufTy).Contents (Elt F)) : (⟨S50000, .f32⟩ : BufTy).Contents (Elt F) :=
  addf (Host.scatterAdd scatter_S50000_S1000000x1_S1000000_n_0_0_1 (broadcastInDim S50000 ![] bcast_S_S50000 (constant S_ .f32 0x00000000#32)) (col2 c) g)
    (broadcastInDim S50000 ![] bcast_S_S50000 (constant S_ .f32 0x3F800000#32))
/-- The inverse square root of a degree array where it is positive, zero elsewhere. -/
def dinvOf (d : (⟨S50000, .f32⟩ : BufTy).Contents (Elt F)) : (⟨S50000, .f32⟩ : BufTy).Contents (Elt F) :=
  select (cmpf .ogt d (broadcastInDim S50000 ![] bcast_S_S50000 (constant S_ .f32 0x00000000#32)))
    (Host.powf d (broadcastInDim S50000 ![] bcast_S_S50000 (constant S_ .f32 0xBF000000#32)))
    (broadcastInDim S50000 ![] bcast_S_S50000 (id (constant S_ .f32 0x00000000#32)))

/-- An array of node words as indexing reads them: a negative word counts from the end. -/
def nidx (a : (⟨S1000000, .i32⟩ : BufTy).Contents (Elt F)) : (⟨S1000000, .i32⟩ : BufTy).Contents (Elt F) :=
  select (cmpi .slt a (broadcastInDim S1000000 ![] bcast_S_S1000000 (constantI S_ 32 0#32)))
    (addi a (broadcastInDim S1000000 ![] bcast_S_S1000000 (constantI S_ 32 50000#32))) a
/-- … as the index column of a gather. -/
def nidx2 (a : (⟨S1000000, .i32⟩ : BufTy).Contents (Elt F)) : (⟨S1000000x1, .i32⟩ : BufTy).Contents (Elt F) :=
  broadcastInDim S1000000x1 ![0] bcast_S1000000_S1000000x1_0 (nidx a)

/-- The symmetric normalisation weight of every edge: dinv[source] · g · dinv[target]. -/
def norm (dinv : (⟨S50000, .f32⟩ : BufTy).Contents (Elt F)) (r c : (⟨S1000000, .i32⟩ : BufTy).Contents (Elt F)) (g : (⟨S1000000, .f32⟩ : BufTy).Contents (Elt F)) : (⟨S1000000, .f32⟩ : BufTy).Contents (Elt F) :=
  mulf (mulf (Host.gather gather_S50000_S1000000x1_S1000000_n_0_n_n_0_1_1 dinv (nidx2 r)) g)
    (Host.gather gather_S50000_S1000000x1_S1000000_n_0_n_n_0_1_1 dinv (nidx2 c))
/-- The source nodes' feature rows. -/
def xrow (x : (⟨S50000x64, .f32⟩ : BufTy).Contents (Elt F)) (r : (⟨S1000000, .i32⟩ : BufTy).Contents (Elt F)) : (⟨S1000000x64, .f32⟩ : BufTy).Contents (Elt F) :=
  Host.gather gather_S50000x64_S1000000x1_S1000000x64_1_0_n_n_0_1_164 x (nidx2 r)
/-- The target nodes' feature rows. -/
def xcol (x : (⟨S50000x64, .f32⟩ : BufTy).Contents (Elt F)) (c : (⟨S1000000, .i32⟩ : BufTy).Contents (Elt F)) : (⟨S1000000x64, .f32⟩ : BufTy).Contents (Elt F) :=
  Host.gather gather_S50000x64_S1000000x1_S1000000x64_1_0_n_n_0_1_164 x (nidx2 c)
/-- A length-E array as a column. -/
def asCol (a : (⟨S1000000, .f32⟩ : BufTy).Contents (Elt F)) : (⟨S1000000x1, .f32⟩ : BufTy).Contents (Elt F) :=
  shapeCast S1000000x1 a shapeCasts_S1000000_S1000000x1
/-- A bias as a row. -/
def asRow (b : (⟨S64, .f32⟩ : BufTy).Contents (Elt F)) : (⟨S1x64, .f32⟩ : BufTy).Contents (Elt F) :=
  shapeCast S1x64 b shapeCasts_S64_S1x64

/-- The layer's result from the message array: messages added at their targets, the self loops, the bias. -/
def post (x : (⟨S50000x64, .f32⟩ : BufTy).Contents (Elt F)) (c : (⟨S1000000, .i32⟩ : BufTy).Contents (Elt F)) (dinv : (⟨S50000, .f32⟩ : BufTy).Contents (Elt F))
    (W : (⟨S64x64, .f32⟩ : BufTy).Contents (Elt F)) (b : (⟨S64, .f32⟩ : BufTy).Contents (Elt F)) (M : (⟨S1000000x64, .f32⟩ : BufTy).Contents (Elt F)) : (⟨S50000x64, .f32⟩ : BufTy).Contents (Elt F) :=
  addf (addf (Host.scatterAdd scatter_S50000x64_S1000000x1_S1000000x64_1_0_0_1 (broadcastInDim S50000x64 ![] bcast_S_S50000x64 (constant S_ .f32 0x00000000#32)) (col2 c) M)
      (mulf (broadcastInDim S50000x64 ![0, 1] bcast_S50000x1_S50000x64_0_1 (broadcastInDim S50000x1 ![0] bcast_S50000_S50000x1_0 (mulf dinv dinv)))
        (Host.dotGeneral dot_S50000x64_S64x64_S50000x64_1_0_0_1_n_n (some .fp32) x W)))
    (broadcastInDim S50000x64 ![0, 1] bcast_S1x64_S50000x64_0_1 (broadcastInDim S1x64 ![1] bcast_S64_S1x64_1 b))

/-- The rectifier between the layers. -/
def relu (a : (⟨S50000x64, .f32⟩ : BufTy).Contents (Elt F)) : (⟨S50000x64, .f32⟩ : BufTy).Contents (Elt F) :=
  maximumf a (broadcastInDim S50000x64 ![] bcast_S_S50000x64 (constant S_ .f32 0x00000000#32))

end Cert.KernelIdeal.KV

end
-- ==== Proof.KFoldPre.lean ====
/-
  The buffer contents when the first edge kernel is entered, as functions of the arguments.

  From any contents V, the host operations before the first kernel leave: the source and target words (rows of the
  edge list), the gate, the inverse root of the gated degree, and the kernel's seven input arrays — the endpoints'
  feature rows, the normalisation weights and hetero gates as columns, the two weight matrices, the hetero bias as
  a row. The argument buffers keep their contents.
-/
import proofs.«152795_j88356067213584_1_alg».proof.Proof.Gen.KernelIdeal.Frame
import proofs.«152795_j88356067213584_1_alg».proof.Proof.KDefs
import Idealize.ShloMosaic.Lib.StableHlo.Run

set_option maxRecDepth 16384
set_option maxHeartbeats 4000000

noncomputable section

namespace Cert.KernelIdeal.Fold

open Cert.KernelIdeal Cert.KernelIdeal.Gen Cert.KernelIdeal.KV
open Idealize.ShloMosaic Idealize.ShloMosaic.TcCoe Idealize.ShloMosaic.StableHlo Idealize.SL.Sem

variable {F : FTy → Type} [FloatOps F]
variable (V : Valuation τ sig (Elt F))

/-- The contents after the three stretches of host operations that precede the first edge kernel. -/
abbrev pre : Valuation τ sig (Elt F) := StableHlo.after hostOps0_2 (StableHlo.after hostOps0_1 (StableHlo.after hostOps0 V))

/-- Reads one buffer after a literal list of host operations: each operation's result at its own buffer is its
    function of its operands' contents, and any other buffer keeps its contents. -/
local macro "fold_read" : tactic =>
  `(tactic| (simp only [pre, hostOps0, hostOps0_1, hostOps0_2, hostOps1, hostOps1_1, hostOps1_2, hostOps1_3, hostOps1_4, hostOps2]
             after_results_simp
             try rfl))

theorem pre_v1 : pre V (Proc.devRef .tc main_v1) = row (V (Proc.devRef .tc main_arg1)) := by fold_read
theorem pre_v3 : pre V (Proc.devRef .tc main_v3) = col (V (Proc.devRef .tc main_arg1)) := by fold_read
theorem pre_v11 : pre V (Proc.devRef .tc main_v11) = gate (V (Proc.devRef .tc main_arg2)) := by fold_read
theorem pre_v23 : pre V (Proc.devRef .tc main_v23) = dinvOf (deg (col (V (Proc.devRef .tc main_arg1))) (gate (V (Proc.devRef .tc main_arg2)))) := by fold_read
theorem pre_v46 : pre V (Proc.devRef .tc main_v46) = xrow (V (Proc.devRef .tc main_arg0)) (row (V (Proc.devRef .tc main_arg1))) := by fold_read
theorem pre_v53 : pre V (Proc.devRef .tc main_v53) = xcol (V (Proc.devRef .tc main_arg0)) (col (V (Proc.devRef .tc main_arg1))) := by fold_read
theorem pre_v54 : pre V (Proc.devRef .tc main_v54) = asCol (norm (dinvOf (deg (col (V (Proc.devRef .tc main_arg1))) (gate (V (Proc.devRef .tc main_arg2))))) (row (V (Proc.devRef .tc main_arg1))) (col (V (Proc.devRef .tc main_arg1))) (gate (V (Proc.devRef .tc main_arg2)))) := by fold_read
theorem pre_v55 : pre V (Proc.devRef .tc main_v55) = asCol (ghet (gate (V (Proc.devRef .tc main_arg2)))) := by fold_read
theorem pre_v56 : pre V (Proc.devRef .tc main_v56) = asRow (V (Proc.devRef .tc main_arg8)) := by fold_read
theorem pre_arg0 : pre V (Proc.devRef .tc main_arg0) = V (Proc.devRef .tc main_arg0) := by fold_read
theorem pre_arg3 : pre V (Proc.devRef .tc main_arg3) = V (Proc.devRef .tc main_arg3) := by fold_read
theorem pre_arg4 : pre V (Proc.devRef .tc main_arg4) = V (Proc.devRef .tc main_arg4) := by fold_read
theorem pre_arg5 : pre V (Proc.devRef .tc main_arg5) = V (Proc.devRef .tc main_arg5) := by fold_read
theorem pre_arg6 : pre V (Proc.devRef .tc main_arg6) = V (Proc.devRef .tc main_arg6) := by fold_read
theorem pre_arg7 : pre V (Proc.devRef .tc main_arg7) = V (Proc.devRef .tc main_arg7) := by fold_read
theorem pre_arg9 : pre V (Proc.devRef .tc main_arg9) = V (Proc.devRef .tc main_arg9) := by fold_read
theorem pre_arg10 : pre V (Proc.devRef .tc main_arg10) = V (Proc.devRef .tc main_arg10) := by fold_read

end Cert.KernelIdeal.Fold

end
-- ==== Proof.KFoldMid.lean ====
/-
  The buffer contents when the second edge kernel is entered, as functions of the contents the first one leaves.

  From any contents V, the host operations between the two kernels leave: the first layer's result rectified
  (messages added at their targets, self loops, bias, then the maximum with zero), the inverse root of the gated
  degree computed again, and the second kernel's seven input arrays built from the rectified features. The
  buffers they only read keep their contents.
-/
import proofs.«152795_j88356067213584_1_alg».proof.Proof.Gen.KernelIdeal.Frame
import proofs.«152795_j88356067213584_1_alg».proof.Proof.KDefs
import Idealize.ShloMosaic.Lib.StableHlo.Run

set_option maxRecDepth 16384
set_option maxHeartbeats 4000000

noncomputable section

namespace Cert.KernelIdeal.Fold

open Cert.KernelIdeal Cert.KernelIdeal.Gen Cert.KernelIdeal.KV
open Idealize.ShloMosaic Idealize.ShloMosaic.TcCoe Idealize.ShloMosaic.StableHlo Idealize.SL.Sem

variable {F : FTy → Type} [FloatOps F]
variable (V : Valuation τ sig (Elt F))

/-- The contents after the five stretches of host operations between the two edge kernels. -/
abbrev mid : Valuation τ sig (Elt F) :=
  StableHlo.after hostOps1_4 (StableHlo.after hostOps1_3 (StableHlo.after hostOps1_2 (StableHlo.after hostOps1_1 (StableHlo.after hostOps1 V))))

/-- Reads one buffer after a literal list of host operations: each operation's result at its own buffer is its
    function of its operands' contents, and any other buffer keeps its contents. -/
local macro "fold_read" : tactic =>
  `(tactic| (simp only [mid, hostOps0, hostOps0_1, hostOps0_2, hostOps1, hostOps1_1, hostOps1_2, hostOps1_3, hostOps1_4, hostOps2]
             after_results_simp
             try rfl))

theorem mid_v70 : mid V (Proc.devRef .tc main_v70) = relu (post (V (Proc.devRef .tc main_arg0)) (V (Proc.devRef .tc main_v3)) (V (Proc.devRef .tc main_v23)) (V (Proc.devRef .tc main_arg3)) (V (Proc.devRef .tc main_arg4)) (V (Proc.devRef .tc main_v57))) := by fold_read
theorem mid_v82 : mid V (Proc.devRef .tc main_v82) = dinvOf (deg (V (Proc.devRef .tc main_v3)) (V (Proc.devRef .tc main_v11))) := by fold_read
theorem mid_v105 : mid V (Proc.devRef .tc main_v105) = xrow (relu (post (V (Proc.devRef .tc main_arg0)) (V (Proc.devRef .tc main_v3)) (V (Proc.devRef .tc main_v23)) (V (Proc.devRef .tc main_arg3)) (V (Proc.devRef .tc main_arg4)) (V (Proc.devRef .tc main_v57)))) (V (Proc.devRef .tc main_v1)) := by fold_read
theorem mid_v112 : mid V (Proc.devRef .tc main_v112) = xcol (relu (post (V (Proc.devRef .tc main_arg0)) (V (Proc.devRef .tc main_v3)) (V (Proc.devRef .tc main_v23)) (V (Proc.devRef .tc main_arg3)) (V (Proc.devRef .tc main_arg4)) (V (Proc.devRef .tc main_v57)))) (V (Proc.devRef .tc main_v3)) := by fold_read
theorem mid_v113 : mid V (Proc.devRef .tc main_v113) = asCol (norm (dinvOf (deg (V (Proc.devRef .tc main_v3)) (V (Proc.devRef .tc main_v11)))) (V (Proc.devRef .tc main_v1)) (V (Proc.devRef .tc main_v3)) (V (Proc.devRef .tc main_v11))) := by fold_read
theorem mid_v114 : mid V (Proc.devRef .tc main_v114) = asCol (ghet (V (Proc.devRef .tc main_v11))) := by fold_read
theorem mid_v115 : mid V (Proc.devRef .tc main_v115) = asRow (V (Proc.devRef .tc main_arg10)) := by fold_read
theorem mid_v3 : mid V (Proc.devRef .tc main_v3) = V (Proc.devRef .tc main_v3) := by fold_read
theorem mid_arg5 : mid V (Proc.devRef .tc main_arg5) = V (Proc.devRef .tc main_arg5) := by fold_read
theorem mid_arg6 : mid V (Proc.devRef .tc main_arg6) = V (Proc.devRef .tc main_arg6) := by fold_read
theorem mid_arg9 : mid V (Proc.devRef .tc main_arg9) = V (Proc.devRef .tc main_arg9) := by fold_read

/-- The program's result from the contents the second edge kernel leaves: messages added at their targets, self loops, bias. -/
theorem tail_v128 : StableHlo.after hostOps2 V (Proc.devRef .tc main_v128)
    = post (V (Proc.devRef .tc main_v70)) (V (Proc.devRef .tc main_v3)) (V (Proc.devRef .tc main_v82)) (V (Proc.devRef .tc main_arg5)) (V (Proc.devRef .tc main_arg6)) (V (Proc.devRef .tc main_v116)) := by fold_read

end Cert.KernelIdeal.Fold

end
-- ==== Proof.Msg.lean ====
/-
  The message one edge sends on one output channel, as a function of the arrays the edge kernel is given.

  For edge e and channel k, with xr, xc the source and target feature rows of the edge, nrm its symmetric
  normalisation weight, gh its hetero gate, W and Wh the two weight matrices and bh the hetero bias:
      nrm e · (∑ j, xr e j · W j k)  +  gh e · ((∑ j, |xr e j − xc e j| · Wh j k) + bh k),
  the absolute value written as the extended reals' max x (−x).
-/
import Idealize.ShloMosaic.PureOps.Ideal
import Idealize.ShloMosaic.Lib.ValueIdx

noncomputable section

open scoped BigOperators

namespace Cert.MsgPass

open Idealize.ShloMosaic Idealize.ShloMosaic.ValueIdx

/-- The message of edge `e` on channel `k`. -/
def msgAt {E D : Nat} (xr xc : (⟨2, ![E, D]⟩ : Shape).Idx → EReal) (nrm gh : (⟨2, ![E, 1]⟩ : Shape).Idx → EReal)
    (W Wh : (⟨2, ![D, D]⟩ : Shape).Idx → EReal) (bh : (⟨2, ![1, D]⟩ : Shape).Idx → EReal) (e : Fin E) (k : Fin D) : EReal :=
  nrm (ix2 e 0) * (∑ j : Fin D, xr (ix2 e j) * W (ix2 j k))
    + gh (ix2 e 0) * ((∑ j : Fin D, max (xr (ix2 e j) - xc (ix2 e j)) (-(xr (ix2 e j) - xc (ix2 e j))) * Wh (ix2 j k)) + bh (ix2 0 k))

end Cert.MsgPass

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.RegionValue.lean ====
/-
  The value of each of the program's two pipelined regions, read at an index.

  Each region runs the same body over 100 grid points. Point t stages rows 10000 t … 10000 t + 9999 of four row-tiled arrays
  (source features xr, target features xc, normalisation weights nrm, gates gh) and the whole of three small ones (weights W
  and Wh, bias bh), and writes back rows 10000 t … 10000 t + 9999 of the result. On a tile the body computes, at row p and
  column q,
      x2 (p, 0) · (∑ j, x0 (p, j) · x4 (j, q))  +  x3 (p, 0) · ((∑ j, |x0 (p, j) − x1 (p, j)| · x5 (j, q)) + x6 (0, q)),
  which is the message of edge 10000 t + p on channel q. The 100 blocks tile the [1000000, 64] result (row r lies in block
  r / 10000), so the result array ends holding the message of every edge on every channel.
-/
import proofs.«152795_j88356067213584_1_alg».proof.Proof.Gen.KernelIdeal.Frame
import proofs.«152795_j88356067213584_1_alg».proof.Proof.Msg
import proofs.«152795_j88356067213584_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Idealize.ShloMosaic Idealize.ShloMosaic.ValueIdx Idealize.ShloMosaic.TcCoe Idealize.SL.Sem
open Idealize.ShloMosaic.Pipeline (Dat)

/-- Zero offsets on both axes, spelt as the constant function. -/
theorem zero_offsets : (![0, 0] : Fin 2 → Nat) = fun _ => 0 := funext fun a => by fin_cases a <;> rfl

/-- A column vector [10000, 1] spread along the lanes reads its row's one entry. -/
theorem spread_column_apply (x : Vec Ideal S10000x1 .f32) (h : S10000x1.Broadcasts S10000x64) (p : Fin 10000) (q : Fin 64) :
    broadcastTo S10000x64 x h (ix2 p q) = x (ix2 p 0) :=
  broadcastTo_apply x h (ix2 p q) (ix2 p 0) fun a => by
    match a with
    | ⟨0, _⟩ => rfl
    | ⟨1, _⟩ => rfl

/-- A row vector [1, 64] spread along the rows reads its column's one entry. -/
theorem spread_row_apply (x : Vec Ideal S1x64 .f32) (h : S1x64.Broadcasts S10000x64) (p : Fin 10000) (q : Fin 64) :
    broadcastTo S10000x64 x h (ix2 p q) = x (ix2 0 q) :=
  broadcastTo_apply x h (ix2 p q) (ix2 0 q) fun a => by
    match a with
    | ⟨0, _⟩ => rfl
    | ⟨1, _⟩ => rfl

/-- The message of every edge on every channel, as one function on the [1000000, 64] index set: at index i the message of
    edge (i 0) on channel (i 1). -/
def msgArr (xr xc : S1000000x64.Idx → EReal) (nrm gh : S1000000x1.Idx → EReal) (W Wh : S64x64.Idx → EReal)
    (bh : S1x64.Idx → EReal) : S1000000x64.Idx → EReal :=
  fun i => Cert.MsgPass.msgAt xr xc nrm gh W Wh bh (⟨(i 0).val, idx2_lt0 i⟩ : Fin 1000000) (⟨(i 1).val, idx2_lt1 i⟩ : Fin 64)

/-- At the index of edge e and channel k it is their message. -/
theorem msgArr_apply (xr xc : S1000000x64.Idx → EReal) (nrm gh : S1000000x1.Idx → EReal) (W Wh : S64x64.Idx → EReal)
    (bh : S1x64.Idx → EReal) (e : Fin 1000000) (k : Fin 64) :
    msgArr xr xc nrm gh W Wh bh (ix2 e k) = Cert.MsgPass.msgAt xr xc nrm gh W Wh bh e k := rfl

/-! ## Region 0: each grid point's tile, the cover, and the array -/

/-- THE BODY ON ONE TILE of region 0, at row p and column q: the message formula of the tile's seven operands. The format
    changes are the identity on extended reals, the same-shape casts are the identity, each matrix product into the zero
    accumulator is the plain sum over the contraction index, and the absolute value is max x (-x). -/
theorem tile0_payload_apply (x0 x1 : Vec Ideal S10000x64 .f32) (x2 x3 : Vec Ideal S10000x1 .f32)
    (x4 x5 : Vec Ideal S64x64 .f32) (x6 : Vec Ideal S1x64 .f32) (p : Fin 10000) (q : Fin 64) :
    Gen.k0_pay1 x0 x1 x2 x3 x4 x5 x6 (ix2 p q) = Cert.MsgPass.msgAt x0 x1 x2 x3 x4 x5 x6 p q := by
  unfold Gen.k0_pay1 Cert.MsgPass.msgAt
  simp only [shapeCast_self, matmul]
  rw [addf_apply, mulf_apply, mulf_apply, addf_apply, spread_column_apply, spread_column_apply, spread_row_apply,
    Cert.PlainDot.matmul_zero_apply dot_S10000x64_S64x64_S10000x64_1_0_0_1_n_n rfl rfl rfl rfl rfl rfl,
    Cert.PlainDot.matmul_zero_apply dot_S10000x64_S64x64_S10000x64_1_0_0_1_n_n rfl rfl rfl rfl rfl rfl]
  rfl

/-- The same entry when the tile's operands are rows of whole arrays: if row (y 0) of the two feature tiles and of the two
    weight columns is row (i 0) of the arrays, the three small operands are the arrays themselves, and y and i name the same
    column, then the tile's entry at y is the arrays' message at i. -/
theorem tile0_entry_eq_msg (xr xc : S1000000x64.Idx → EReal) (nrm gh : S1000000x1.Idx → EReal) (W Wh : S64x64.Idx → EReal)
    (bh : S1x64.Idx → EReal) (x0 x1 : Vec Ideal S10000x64 .f32) (x2 x3 : Vec Ideal S10000x1 .f32)
    (x4 x5 : Vec Ideal S64x64 .f32) (x6 : Vec Ideal S1x64 .f32) (y : S10000x64.Idx) (i : S1000000x64.Idx)
    (h0 : ∀ j : Fin 64, x0 (ix2 (⟨(y 0).val, idx2_lt0 y⟩ : Fin 10000) j) = xr (ix2 (⟨(i 0).val, idx2_lt0 i⟩ : Fin 1000000) j))
    (h1 : ∀ j : Fin 64, x1 (ix2 (⟨(y 0).val, idx2_lt0 y⟩ : Fin 10000) j) = xc (ix2 (⟨(i 0).val, idx2_lt0 i⟩ : Fin 1000000) j))
    (h2 : x2 (ix2 (⟨(y 0).val, idx2_lt0 y⟩ : Fin 10000) (0 : Fin 1)) = nrm (ix2 (⟨(i 0).val, idx2_lt0 i⟩ : Fin 1000000) (0 : Fin 1)))
    (h3 : x3 (ix2 (⟨(y 0).val, idx2_lt0 y⟩ : Fin 10000) (0 : Fin 1)) = gh (ix2 (⟨(i 0).val, idx2_lt0 i⟩ : Fin 1000000) (0 : Fin 1)))
    (h4 : x4 = W) (h5 : x5 = Wh) (h6 : x6 = bh) (hcol : (y 1).val = (i 1).val) :
    Gen.k0_pay1 x0 x1 x2 x3 x4 x5 x6 y = msgArr xr xc nrm gh W Wh bh i := by
  obtain ⟨p, q, rfl⟩ : ∃ (p : Fin 10000) (q : Fin 64), y = ix2 p q := ⟨y 0, y 1, eq_ix2 y⟩
  have h0' : ∀ j : Fin 64, x0 (ix2 p j) = xr (ix2 (⟨(i 0).val, idx2_lt0 i⟩ : Fin 1000000) j) := h0
  have h1' : ∀ j : Fin 64, x1 (ix2 p j) = xc (ix2 (⟨(i 0).val, idx2_lt0 i⟩ : Fin 1000000) j) := h1
  have h2' : x2 (ix2 p (0 : Fin 1)) = nrm (ix2 (⟨(i 0).val, idx2_lt0 i⟩ : Fin 1000000) (0 : Fin 1)) := h2
  have h3' : x3 (ix2 p (0 : Fin 1)) = gh (ix2 (⟨(i 0).val, idx2_lt0 i⟩ : Fin 1000000) (0 : Fin 1)) := h3
  have hq : q = (⟨(i 1).val, idx2_lt1 i⟩ : Fin 64) := Fin.ext hcol
  subst h4 h5 h6
  rw [tile0_payload_apply, hq]
  unfold msgArr Cert.MsgPass.msgAt
  simp only [h0', h1', h2', h3']

/-- The index maps of region 0, decided once over its 100 grid points: the four row-tiled inputs and the output sit at
    block (t, 0); the three small inputs sit at block (0, 0) at every point. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The array region 0 writes, as one function of the arrays it finds at entry. -/
abbrev result0 (V : (c : Dev nD) → (b : Ref sig .tc) → Buf (Elt Ideal) ((c : Thread nD τ).loc b)) (c : Dev nD) :
    S1000000x64.Idx → EReal :=
  msgArr (V c main_v46) (V c main_v53) (V c main_v54) (V c main_v55) (V c main_arg3) (V c main_arg7) (V c main_v56)

/-- WHAT POINT t OF REGION 0 WRITES BACK is block t of that function: the tile's rows are rows 10000 t … 10000 t + 9999 of
    the row-tiled arrays, and the small operands are whole. -/
theorem point_writes0 (V : (c : Dev nD) → (b : Ref sig .tc) → Buf (Elt Ideal) ((c : Thread nD τ).loc b)) (c : Dev nD)
    (t : Fin cfg0.N) :
    (Gen.dat0 (F := Ideal) V c).flushed 7 t = ((cfg0.win 7).blk t).view.read (Elt Ideal) (result0 V c) := by
  show (cfg0.win 7).cut (grid0.coords t) ((Gen.dat0 V c).after 7 t) = _
  rw [Gen.after0_7]
  unfold Gen.out0_7
  rw [View.canon_unit_zero zero_offsets]
  simp only [View.ld_unit_zero (S := S10000x64) zero_offsets, View.ld_unit_zero (S := S10000x1) zero_offsets,
    View.ld_unit_zero (S := S64x64) zero_offsets, View.ld_unit_zero (S := S1x64) zero_offsets]
  obtain ⟨a00, a01, a10, a11, a20, a21, a30, a31, a40, a41, a50, a51, a60, a61, a70, a71⟩ := block_indices0 t
  funext j
  have hj0 : (j 0).val < 10000 := (j 0).isLt
  have hj1 : (j 1).val < 64 := (j 1).isLt
  show Gen.k0_pay1 (Gen.iblk0 V c 0 t) (Gen.iblk0 V c 1 t) (Gen.iblk0 V c 2 t) (Gen.iblk0 V c 3 t) (Gen.iblk0 V c 4 t) (Gen.iblk0 V c 5 t) (Gen.iblk0 V c 6 t) ((cfg0.win 7).xinj (grid0.coords t) j)
    = msgArr (V c main_v46) (V c main_v53) (V c main_v54) (V c main_v55) (V c main_arg3) (V c main_arg7) (V c main_v56) (((cfg0.win 7).blk t).view.emb j)
  refine tile0_entry_eq_msg (V c main_v46) (V c main_v53) (V c main_v54) (V c main_v55) (V c main_arg3) (V c main_arg7) (V c main_v56) (Gen.iblk0 V c 0 t) (Gen.iblk0 V c 1 t) (Gen.iblk0 V c 2 t) (Gen.iblk0 V c 3 t) (Gen.iblk0 V c 4 t) (Gen.iblk0 V c 5 t) (Gen.iblk0 V c 6 t)
    ((cfg0.win 7).xinj (grid0.coords t) j) (((cfg0.win 7).blk t).view.emb j) (fun j' => ?_) (fun j' => ?_) ?_ ?_ ?_ ?_ ?_ ?_
  · show V c main_v46 (((cfg0.win 0).blk t).view.emb (ix2 (⟨(j 0).val, hj0⟩ : Fin 10000) j')) = V c main_v46 _
    refine congrArg (V c main_v46) (funext fun a => Fin.ext ?_)
    match a with
    | ⟨0, _⟩ => show win0_0.index t (0 : Fin 2) * 10000 + 1 * (j 0).val = win0_7.index t (0 : Fin 2) * 10000 + 1 * (j 0).val; omega
    | ⟨1, _⟩ => show win0_0.index t (1 : Fin 2) * 64 + 1 * j'.val = j'.val; omega
  · show V c main_v53 (((cfg0.win 1).blk t).view.emb (ix2 (⟨(j 0).val, hj0⟩ : Fin 10000) j')) = V c main_v53 _
    refine congrArg (V c main_v53) (funext fun a => Fin.ext ?_)
    match a with
    | ⟨0, _⟩ => show win0_1.index t (0 : Fin 2) * 10000 + 1 * (j 0).val = win0_7.index t (0 : Fin 2) * 10000 + 1 * (j 0).val; omega
    | ⟨1, _⟩ => show win0_1.index t (1 : Fin 2) * 64 + 1 * j'.val = j'.val; omega
  · show V c main_v54 (((cfg0.win 2).blk t).view.emb (ix2 (⟨(j 0).val, hj0⟩ : Fin 10000) (0 : Fin 1))) = V c main_v54 _
    refine congrArg (V c main_v54) (funext fun a => Fin.ext ?_)
    match a with
    | ⟨0, _⟩ => show win0_2.index t (0 : Fin 2) * 10000 + 1 * (j 0).val = win0_7.index t (0 : Fin 2) * 10000 + 1 * (j 0).val; omega
    | ⟨1, _⟩ => show win0_2.index t (1 : Fin 2) * 1 + 1 * 0 = 0; omega
  · show V c main_v55 (((cfg0.win 3).blk t).view.emb (ix2 (⟨(j 0).val, hj0⟩ : Fin 10000) (0 : Fin 1))) = V c main_v55 _
    refine congrArg (V c main_v55) (funext fun a => Fin.ext ?_)
    match a with
    | ⟨0, _⟩ => show win0_3.index t (0 : Fin 2) * 10000 + 1 * (j 0).val = win0_7.index t (0 : Fin 2) * 10000 + 1 * (j 0).val; omega
    | ⟨1, _⟩ => show win0_3.index t (1 : Fin 2) * 1 + 1 * 0 = 0; omega
  · funext y
    show V c main_arg3 (((cfg0.win 4).blk t).view.emb y) = V c main_arg3 y
    refine congrArg (V c main_arg3) (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega
  · funext y
    show V c main_arg7 (((cfg0.win 5).blk t).view.emb y) = V c main_arg7 y
    refine congrArg (V c main_arg7) (funext fun a => Fin.ext ?_)
    match a with
    | ⟨0, _⟩ => show win0_5.index t (0 : Fin 2) * 64 + 1 * (y 0).val = (y 0).val; omega
    | ⟨1, _⟩ => show win0_5.index t (1 : Fin 2) * 64 + 1 * (y 1).val = (y 1).val; omega
  · funext y
    show V c main_v56 (((cfg0.win 6).blk t).view.emb y) = V c main_v56 y
    refine congrArg (V c main_v56) (funext fun a => Fin.ext ?_)
    match a with
    | ⟨0, _⟩ => show win0_6.index t (0 : Fin 2) * 1 + 1 * (y 0).val = (y 0).val; omega
    | ⟨1, _⟩ => show win0_6.index t (1 : Fin 2) * 64 + 1 * (y 1).val = (y 1).val; omega
  · show (j 1).val = win0_7.index t (1 : Fin 2) * 64 + 1 * (j 1).val
    omega

/-- An index of the result array lies in point t's block iff each coordinate lies in the block's range on its axis. -/
theorem mem_block0 (t : Fin cfg0.N) (i : S1000000x64.Idx) :
    i ∈ ((cfg0.win 7).blk t).view.set ↔ ∀ a : Fin 2, win0_7.index t a * S10000x64.size a ≤ (i a).val
      ∧ (i a).val < win0_7.index t a * S10000x64.size a + S10000x64.size a := by
  show i ∈ ((View.whole main_v57).slice (win0_7.rect t)).set ↔ _
  rw [View.set_slice_whole, Rect.mem_set_unit]
  exact Iff.rfl

/-- THE BLOCKS COVER THE ARRAY: row r lies in the block of point r / 10000, and every point writes back. -/
theorem rows_covered0 (i : S1000000x64.Idx) :
    ∃ t : Fin cfg0.N, (cfg0.win 7).flush t = true ∧ i ∈ ((cfg0.win 7).blk t).view.set := by
  have hi0 : (i 0).val < 1000000 := (i 0).isLt
  have hi1 : (i 1).val < 64 := (i 1).isLt
  have hN : cfg0.N = 100 := Gen.N_0
  have ht : (i 0).val / 10000 < cfg0.N := by rw [hN]; omega
  obtain ⟨-, -, -, -, -, -, -, -, -, -, -, -, -, -, a70, a71⟩ := block_indices0 ⟨(i 0).val / 10000, ht⟩
  have a70' : win0_7.index ⟨(i 0).val / 10000, ht⟩ (0 : Fin 2) = (i 0).val / 10000 := a70
  refine ⟨⟨(i 0).val / 10000, ht⟩, Gen.flush0_7 _, ?_⟩
  rw [mem_block0]
  intro a
  match a with
  | ⟨0, _⟩ =>
    show win0_7.index ⟨(i 0).val / 10000, ht⟩ (0 : Fin 2) * 10000 ≤ (i 0).val
      ∧ (i 0).val < win0_7.index ⟨(i 0).val / 10000, ht⟩ (0 : Fin 2) * 10000 + 10000
    omega
  | ⟨1, _⟩ =>
    show win0_7.index ⟨(i 0).val / 10000, ht⟩ (1 : Fin 2) * 64 ≤ (i 1).val
      ∧ (i 1).val < win0_7.index ⟨(i 0).val / 10000, ht⟩ (1 : Fin 2) * 64 + 64
    omega

/-- THE ARRAY region 0 leaves: the message function of the arrays it found. -/
theorem region0_array (V : (c : Dev nD) → (b : Ref sig .tc) → Buf (Elt Ideal) ((c : Thread nD τ).loc b)) (c : Dev nD) :
    (Gen.dat0 (F := Ideal) V c).arrAt 7 cfg0.N = result0 V c :=
  (Gen.dat0 (F := Ideal) V c).arrAt_eq_of_cover 7 (result0 V c) (fun t _ => point_writes0 V c t) rows_covered0

/-- Read at edge e and channel k: the message of e on k. -/
theorem region0_apply (V : (c : Dev nD) → (b : Ref sig .tc) → Buf (Elt Ideal) ((c : Thread nD τ).loc b)) (c : Dev nD)
    (e : Fin 1000000) (k : Fin 64) :
    (((Gen.dat0 (F := Ideal) V c).arrAt 7 cfg0.N) : S1000000x64.Idx → EReal) (ix2 e k)
      = Cert.MsgPass.msgAt (V c main_v46) (V c main_v53) (V c main_v54) (V c main_v55) (V c main_arg3) (V c main_arg7) (V c main_v56) e k := by
  rw [region0_array V c]
  exact msgArr_apply _ _ _ _ _ _ _ e k

/-! ## Region 1: each grid point's tile, the cover, and the array -/

/-- THE BODY ON ONE TILE of region 1, at row p and column q: the message formula of the tile's seven operands. The format
    changes are the identity on extended reals, the same-shape casts are the identity, each matrix product into the zero
    accumulator is the plain sum over the contraction index, and the absolute value is max x (-x). -/
theorem tile1_payload_apply (x0 x1 : Vec Ideal S10000x64 .f32) (x2 x3 : Vec Ideal S10000x1 .f32)
    (x4 x5 : Vec Ideal S64x64 .f32) (x6 : Vec Ideal S1x64 .f32) (p : Fin 10000) (q : Fin 64) :
    Gen.k1_pay1 x0 x1 x2 x3 x4 x5 x6 (ix2 p q) = Cert.MsgPass.msgAt x0 x1 x2 x3 x4 x5 x6 p q := by
  unfold Gen.k1_pay1 Cert.MsgPass.msgAt
  simp only [shapeCast_self, matmul]
  rw [addf_apply, mulf_apply, mulf_apply, addf_apply, spread_column_apply, spread_column_apply, spread_row_apply,
    Cert.PlainDot.matmul_zero_apply dot_S10000x64_S64x64_S10000x64_1_0_0_1_n_n rfl rfl rfl rfl rfl rfl,
    Cert.PlainDot.matmul_zero_apply dot_S10000x64_S64x64_S10000x64_1_0_0_1_n_n rfl rfl rfl rfl rfl rfl]
  rfl

/-- The same entry when the tile's operands are rows of whole arrays: if row (y 0) of the two feature tiles and of the two
    weight columns is row (i 0) of the arrays, the three small operands are the arrays themselves, and y and i name the same
    column, then the tile's entry at y is the arrays' message at i. -/
theorem tile1_entry_eq_msg (xr xc : S1000000x64.Idx → EReal) (nrm gh : S1000000x1.Idx → EReal) (W Wh : S64x64.Idx → EReal)
    (bh : S1x64.Idx → EReal) (x0 x1 : Vec Ideal S10000x64 .f32) (x2 x3 : Vec Ideal S10000x1 .f32)
    (x4 x5 : Vec Ideal S64x64 .f32) (x6 : Vec Ideal S1x64 .f32) (y : S10000x64.Idx) (i : S1000000x64.Idx)
    (h0 : ∀ j : Fin 64, x0 (ix2 (⟨(y 0).val, idx2_lt0 y⟩ : Fin 10000) j) = xr (ix2 (⟨(i 0).val, idx2_lt0 i⟩ : Fin 1000000) j))
    (h1 : ∀ j : Fin 64, x1 (ix2 (⟨(y 0).val, idx2_lt0 y⟩ : Fin 10000) j) = xc (ix2 (⟨(i 0).val, idx2_lt0 i⟩ : Fin 1000000) j))
    (h2 : x2 (ix2 (⟨(y 0).val, idx2_lt0 y⟩ : Fin 10000) (0 : Fin 1)) = nrm (ix2 (⟨(i 0).val, idx2_lt0 i⟩ : Fin 1000000) (0 : Fin 1)))
    (h3 : x3 (ix2 (⟨(y 0).val, idx2_lt0 y⟩ : Fin 10000) (0 : Fin 1)) = gh (ix2 (⟨(i 0).val, idx2_lt0 i⟩ : Fin 1000000) (0 : Fin 1)))
    (h4 : x4 = W) (h5 : x5 = Wh) (h6 : x6 = bh) (hcol : (y 1).val = (i 1).val) :
    Gen.k1_pay1 x0 x1 x2 x3 x4 x5 x6 y = msgArr xr xc nrm gh W Wh bh i := by
  obtain ⟨p, q, rfl⟩ : ∃ (p : Fin 10000) (q : Fin 64), y = ix2 p q := ⟨y 0, y 1, eq_ix2 y⟩
  have h0' : ∀ j : Fin 64, x0 (ix2 p j) = xr (ix2 (⟨(i 0).val, idx2_lt0 i⟩ : Fin 1000000) j) := h0
  have h1' : ∀ j : Fin 64, x1 (ix2 p j) = xc (ix2 (⟨(i 0).val, idx2_lt0 i⟩ : Fin 1000000) j) := h1
  have h2' : x2 (ix2 p (0 : Fin 1)) = nrm (ix2 (⟨(i 0).val, idx2_lt0 i⟩ : Fin 1000000) (0 : Fin 1)) := h2
  have h3' : x3 (ix2 p (0 : Fin 1)) = gh (ix2 (⟨(i 0).val, idx2_lt0 i⟩ : Fin 1000000) (0 : Fin 1)) := h3
  have hq : q = (⟨(i 1).val, idx2_lt1 i⟩ : Fin 64) := Fin.ext hcol
  subst h4 h5 h6
  rw [tile1_payload_apply, hq]
  unfold msgArr Cert.MsgPass.msgAt
  simp only [h0', h1', h2', h3']

/-- The index maps of region 1, decided once over its 100 grid points: the four row-tiled inputs and the output sit at
    block (t, 0); the three small inputs sit at block (0, 0) at every point. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The array region 1 writes, as one function of the arrays it finds at entry. -/
abbrev result1 (V : (c : Dev nD) → (b : Ref sig .tc) → Buf (Elt Ideal) ((c : Thread nD τ).loc b)) (c : Dev nD) :
    S1000000x64.Idx → EReal :=
  msgArr (V c main_v105) (V c main_v112) (V c main_v113) (V c main_v114) (V c main_arg5) (V c main_arg9) (V c main_v115)

/-- WHAT POINT t OF REGION 1 WRITES BACK is block t of that function: the tile's rows are rows 10000 t … 10000 t + 9999 of
    the row-tiled arrays, and the small operands are whole. -/
theorem point_writes1 (V : (c : Dev nD) → (b : Ref sig .tc) → Buf (Elt Ideal) ((c : Thread nD τ).loc b)) (c : Dev nD)
    (t : Fin cfg1.N) :
    (Gen.dat1 (F := Ideal) V c).flushed 7 t = ((cfg1.win 7).blk t).view.read (Elt Ideal) (result1 V c) := by
  show (cfg1.win 7).cut (grid1.coords t) ((Gen.dat1 V c).after 7 t) = _
  rw [Gen.after1_7]
  unfold Gen.out1_7
  rw [View.canon_unit_zero zero_offsets]
  simp only [View.ld_unit_zero (S := S10000x64) zero_offsets, View.ld_unit_zero (S := S10000x1) zero_offsets,
    View.ld_unit_zero (S := S64x64) zero_offsets, View.ld_unit_zero (S := S1x64) zero_offsets]
  obtain ⟨a00, a01, a10, a11, a20, a21, a30, a31, a40, a41, a50, a51, a60, a61, a70, a71⟩ := block_indices1 t
  funext j
  have hj0 : (j 0).val < 10000 := (j 0).isLt
  have hj1 : (j 1).val < 64 := (j 1).isLt
  show Gen.k1_pay1 (Gen.iblk1 V c 0 t) (Gen.iblk1 V c 1 t) (Gen.iblk1 V c 2 t) (Gen.iblk1 V c 3 t) (Gen.iblk1 V c 4 t) (Gen.iblk1 V c 5 t) (Gen.iblk1 V c 6 t) ((cfg1.win 7).xinj (grid1.coords t) j)
    = msgArr (V c main_v105) (V c main_v112) (V c main_v113) (V c main_v114) (V c main_arg5) (V c main_arg9) (V c main_v115) (((cfg1.win 7).blk t).view.emb j)
  refine tile1_entry_eq_msg (V c main_v105) (V c main_v112) (V c main_v113) (V c main_v114) (V c main_arg5) (V c main_arg9) (V c main_v115) (Gen.iblk1 V c 0 t) (Gen.iblk1 V c 1 t) (Gen.iblk1 V c 2 t) (Gen.iblk1 V c 3 t) (Gen.iblk1 V c 4 t) (Gen.iblk1 V c 5 t) (Gen.iblk1 V c 6 t)
    ((cfg1.win 7).xinj (grid1.coords t) j) (((cfg1.win 7).blk t).view.emb j) (fun j' => ?_) (fun j' => ?_) ?_ ?_ ?_ ?_ ?_ ?_
  · show V c main_v105 (((cfg1.win 0).blk t).view.emb (ix2 (⟨(j 0).val, hj0⟩ : Fin 10000) j')) = V c main_v105 _
    refine congrArg (V c main_v105) (funext fun a => Fin.ext ?_)
    match a with
    | ⟨0, _⟩ => show win1_0.index t (0 : Fin 2) * 10000 + 1 * (j 0).val = win1_7.index t (0 : Fin 2) * 10000 + 1 * (j 0).val; omega
    | ⟨1, _⟩ => show win1_0.index t (1 : Fin 2) * 64 + 1 * j'.val = j'.val; omega
  · show V c main_v112 (((cfg1.win 1).blk t).view.emb (ix2 (⟨(j 0).val, hj0⟩ : Fin 10000) j')) = V c main_v112 _
    refine congrArg (V c main_v112) (funext fun a => Fin.ext ?_)
    match a with
    | ⟨0, _⟩ => show win1_1.index t (0 : Fin 2) * 10000 + 1 * (j 0).val = win1_7.index t (0 : Fin 2) * 10000 + 1 * (j 0).val; omega
    | ⟨1, _⟩ => show win1_1.index t (1 : Fin 2) * 64 + 1 * j'.val = j'.val; omega
  · show V c main_v113 (((cfg1.win 2).blk t).view.emb (ix2 (⟨(j 0).val, hj0⟩ : Fin 10000) (0 : Fin 1))) = V c main_v113 _
    refine congrArg (V c main_v113) (funext fun a => Fin.ext ?_)
    match a with
    | ⟨0, _⟩ => show win1_2.index t (0 : Fin 2) * 10000 + 1 * (j 0).val = win1_7.index t (0 : Fin 2) * 10000 + 1 * (j 0).val; omega
    | ⟨1, _⟩ => show win1_2.index t (1 : Fin 2) * 1 + 1 * 0 = 0; omega
  · show V c main_v114 (((cfg1.win 3).blk t).view.emb (ix2 (⟨(j 0).val, hj0⟩ : Fin 10000) (0 : Fin 1))) = V c main_v114 _
    refine congrArg (V c main_v114) (funext fun a => Fin.ext ?_)
    match a with
    | ⟨0, _⟩ => show win1_3.index t (0 : Fin 2) * 10000 + 1 * (j 0).val = win1_7.index t (0 : Fin 2) * 10000 + 1 * (j 0).val; omega
    | ⟨1, _⟩ => show win1_3.index t (1 : Fin 2) * 1 + 1 * 0 = 0; omega
  · funext y
    show V c main_arg5 (((cfg1.win 4).blk t).view.emb y) = V c main_arg5 y
    refine congrArg (V c main_arg5) (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  · funext y
    show V c main_arg9 (((cfg1.win 5).blk t).view.emb y) = V c main_arg9 y
    refine congrArg (V c main_arg9) (funext fun a => Fin.ext ?_)
    match a with
    | ⟨0, _⟩ => show win1_5.index t (0 : Fin 2) * 64 + 1 * (y 0).val = (y 0).val; omega
    | ⟨1, _⟩ => show win1_5.index t (1 : Fin 2) * 64 + 1 * (y 1).val = (y 1).val; omega
  · funext y
    show V c main_v115 (((cfg1.win 6).blk t).view.emb y) = V c main_v115 y
    refine congrArg (V c main_v115) (funext fun a => Fin.ext ?_)
    match a with
    | ⟨0, _⟩ => show win1_6.index t (0 : Fin 2) * 1 + 1 * (y 0).val = (y 0).val; omega
    | ⟨1, _⟩ => show win1_6.index t (1 : Fin 2) * 64 + 1 * (y 1).val = (y 1).val; omega
  · show (j 1).val = win1_7.index t (1 : Fin 2) * 64 + 1 * (j 1).val
    omega

/-- An index of the result array lies in point t's block iff each coordinate lies in the block's range on its axis. -/
theorem mem_block1 (t : Fin cfg1.N) (i : S1000000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole main_v116).slice (win1_7.rect t)).set ↔ _
  rw [View.set_slice_whole, Rect.mem_set_unit]
  exact Iff.rfl

/-- THE BLOCKS COVER THE ARRAY: row r lies in the block of point r / 10000, and every point writes back. -/
theorem rows_covered1 (i : S1000000x64.Idx) :
    ∃ t : Fin cfg1.N, (cfg1.win 7).flush t = true ∧ i ∈ ((cfg1.win 7).blk t).view.set := by
  have hi0 : (i 0).val < 1000000 := (i 0).isLt
  have hi1 : (i 1).val < 64 := (i 1).isLt
  have hN : cfg1.N = 100 := Gen.N_1
  have ht : (i 0).val / 10000 < cfg1.N := by rw [hN]; omega
  obtain ⟨-, -, -, -, -, -, -, -, -, -, -, -, -, -, a70, a71⟩ := block_indices1 ⟨(i 0).val / 10000, ht⟩
  have a70' : win1_7.index ⟨(i 0).val / 10000, ht⟩ (0 : Fin 2) = (i 0).val / 10000 := a70
  refine ⟨⟨(i 0).val / 10000, ht⟩, Gen.flush1_7 _, ?_⟩
  rw [mem_block1]
  intro a
  match a with
  | ⟨0, _⟩ =>
    show win1_7.index ⟨(i 0).val / 10000, ht⟩ (0 : Fin 2) * 10000 ≤ (i 0).val
      ∧ (i 0).val < win1_7.index ⟨(i 0).val / 10000, ht⟩ (0 : Fin 2) * 10000 + 10000
    omega
  | ⟨1, _⟩ =>
    show win1_7.index ⟨(i 0).val / 10000, ht⟩ (1 : Fin 2) * 64 ≤ (i 1).val
      ∧ (i 1).val < win1_7.index ⟨(i 0).val / 10000, ht⟩ (1 : Fin 2) * 64 + 64
    omega

/-- THE ARRAY region 1 leaves: the message function of the arrays it found. -/
theorem region1_array (V : (c : Dev nD) → (b : Ref sig .tc) → Buf (Elt Ideal) ((c : Thread nD τ).loc b)) (c : Dev nD) :
    (Gen.dat1 (F := Ideal) V c).arrAt 7 cfg1.N = result1 V c :=
  (Gen.dat1 (F := Ideal) V c).arrAt_eq_of_cover 7 (result1 V c) (fun t _ => point_writes1 V c t) rows_covered1

/-- Read at edge e and channel k: the message of e on k. -/
theorem region1_apply (V : (c : Dev nD) → (b : Ref sig .tc) → Buf (Elt Ideal) ((c : Thread nD τ).loc b)) (c : Dev nD)
    (e : Fin 1000000) (k : Fin 64) :
    (((Gen.dat1 (F := Ideal) V c).arrAt 7 cfg1.N) : S1000000x64.Idx → EReal) (ix2 e k)
      = Cert.MsgPass.msgAt (V c main_v105) (V c main_v112) (V c main_v113) (V c main_v114) (V c main_arg5) (V c main_arg9) (V c main_v115) e k := by
  rw [region1_array V c]
  exact msgArr_apply _ _ _ _ _ _ _ e k

end Cert.KernelIdeal.RegionValue

end
-- ==== Proof.KValue.lean ====
/-
  The idealized kernel program's result as a function of its arguments.

  Following the buffer contents through the program's segments: the host operations before the first edge kernel
  build its inputs from the arguments; the kernel's output array M0 holds, edge by edge and channel by channel, the
  message of those inputs; the host operations after it add the messages at their targets, the self loops and the
  bias, rectify (H), and build the second kernel's inputs from H; its output array M1 holds the messages of those;
  and the last host operations add them up into the result. The inverse root of the gated degree is computed twice
  by the same operations on the same arrays, so it is one array D.
-/
import proofs.«152795_j88356067213584_1_alg».proof.Proof.Gen.KernelIdeal.Frame
import proofs.«152795_j88356067213584_1_alg».proof.Proof.KFoldPre
import proofs.«152795_j88356067213584_1_alg».proof.Proof.KFoldMid
import proofs.«152795_j88356067213584_1_alg».proof.Proof.RegionValue
import proofs.«152795_j88356067213584_1_alg».proof.Proof.Msg

set_option maxRecDepth 16384

noncomputable section

namespace Cert.KernelIdeal.Whole

open Cert.KernelIdeal Cert.KernelIdeal.Gen Cert.KernelIdeal.KV Cert.KernelIdeal.Fold Cert.MsgPass
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- Argument k's launch contents on core c. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)

/-- The gate array. -/
def G : (⟨S1000000, .f32⟩ : BufTy).Contents (Elt Ideal) := gate (F := Ideal) (a2 m c)
/-- The inverse root of the gated degree. -/
def D : (⟨S50000, .f32⟩ : BufTy).Contents (Elt Ideal) := dinvOf (F := Ideal) (deg (F := Ideal) (col (F := Ideal) (a1 m c)) (G m c))
/-- The first edge kernel's output array. -/
def M0 : (⟨S1000000x64, .f32⟩ : BufTy).Contents (Elt Ideal) := (dat0 (F := Ideal) (V3 m ρ) c).arrAt 7 cfg0.N
/-- The first layer's result, rectified. -/
def H : (⟨S50000x64, .f32⟩ : BufTy).Contents (Elt Ideal) :=
  relu (F := Ideal) (post (F := Ideal) (a0 m c) (col (F := Ideal) (a1 m c)) (D m c) (a3 m c) (a4 m c) (M0 m ρ c))
/-- The second edge kernel's output array. -/
def M1 : (⟨S1000000x64, .f32⟩ : BufTy).Contents (Elt Ideal) := (dat1 (F := Ideal) (V9 m ρ) c).arrAt 7 cfg1.N

/-! ## Entering the first kernel -/

theorem W3_v1 : W3 m ρ c (Proc.devRef .tc main_v1) = row (F := Ideal) (a1 m c) := pre_v1 (W0 m ρ c)
theorem W3_v3 : W3 m ρ c (Proc.devRef .tc main_v3) = col (F := Ideal) (a1 m c) := pre_v3 (W0 m ρ c)
theorem W3_v11 : W3 m ρ c (Proc.devRef .tc main_v11) = G m c := pre_v11 (W0 m ρ c)
theorem W3_v23 : W3 m ρ c (Proc.devRef .tc main_v23) = D m c := pre_v23 (W0 m ρ c)
theorem W3_v46 : W3 m ρ c (Proc.devRef .tc main_v46) = xrow (F := Ideal) (a0 m c) (row (F := Ideal) (a1 m c)) := pre_v46 (W0 m ρ c)
theorem W3_v53 : W3 m ρ c (Proc.devRef .tc main_v53) = xcol (F := Ideal) (a0 m c) (col (F := Ideal) (a1 m c)) := pre_v53 (W0 m ρ c)
theorem W3_v54 : W3 m ρ c (Proc.devRef .tc main_v54) = asCol (F := Ideal) (norm (F := Ideal) (D m c) (row (F := Ideal) (a1 m c)) (col (F := Ideal) (a1 m c)) (G m c)) := pre_v54 (W0 m ρ c)
theorem W3_v55 : W3 m ρ c (Proc.devRef .tc main_v55) = asCol (F := Ideal) (ghet (F := Ideal) (G m c)) := pre_v55 (W0 m ρ c)
theorem W3_v56 : W3 m ρ c (Proc.devRef .tc main_v56) = asRow (F := Ideal) (a8 m c) := pre_v56 (W0 m ρ c)
theorem W3_arg0 : W3 m ρ c (Proc.devRef .tc main_arg0) = (a0 m c) := pre_arg0 (W0 m ρ c)
theorem W3_arg3 : W3 m ρ c (Proc.devRef .tc main_arg3) = (a3 m c) := pre_arg3 (W0 m ρ c)
theorem W3_arg4 : W3 m ρ c (Proc.devRef .tc main_arg4) = (a4 m c) := pre_arg4 (W0 m ρ c)
theorem W3_arg5 : W3 m ρ c (Proc.devRef .tc main_arg5) = (a5 m c) := pre_arg5 (W0 m ρ c)
theorem W3_arg6 : W3 m ρ c (Proc.devRef .tc main_arg6) = (a6 m c) := pre_arg6 (W0 m ρ c)
theorem W3_arg7 : W3 m ρ c (Proc.devRef .tc main_arg7) = (a7 m c) := pre_arg7 (W0 m ρ c)
theorem W3_arg9 : W3 m ρ c (Proc.devRef .tc main_arg9) = (a9 m c) := pre_arg9 (W0 m ρ c)
theorem W3_arg10 : W3 m ρ c (Proc.devRef .tc main_arg10) = (a10 m c) := pre_arg10 (W0 m ρ c)

/-- THE FIRST KERNEL'S OUTPUT: at edge e and channel k, the message of the first layer's arrays. -/
theorem M0_apply (e : Fin 1000000) (k : Fin 64) :
    M0 m ρ c (ix2 e k) = msgAt (xrow (F := Ideal) (a0 m c) (row (F := Ideal) (a1 m c))) (xcol (F := Ideal) (a0 m c) (col (F := Ideal) (a1 m c)))
      (asCol (F := Ideal) (norm (F := Ideal) (D m c) (row (F := Ideal) (a1 m c)) (col (F := Ideal) (a1 m c)) (G m c))) (asCol (F := Ideal) (ghet (F := Ideal) (G m c)))
      (a3 m c) (a7 m c) (asRow (F := Ideal) (a8 m c)) e k := by
  unfold M0
  rw [Cert.KernelIdeal.RegionValue.region0_apply (V3 m ρ) c e k]
  rw [show V3 m ρ c main_v46 = _ from W3_v46 m ρ c, show V3 m ρ c main_v53 = _ from W3_v53 m ρ c,
    show V3 m ρ c main_v54 = _ from W3_v54 m ρ c, show V3 m ρ c main_v55 = _ from W3_v55 m ρ c,
    show V3 m ρ c main_arg3 = _ from W3_arg3 m ρ c, show V3 m ρ c main_arg7 = _ from W3_arg7 m ρ c,
    show V3 m ρ c main_v56 = _ from W3_v56 m ρ c]

/-! ## Leaving the first kernel -/

theorem W4_v57 : W4 m ρ c (Proc.devRef .tc main_v57) = M0 m ρ c := W4_arr m ρ c 7
theorem W4_v1 : W4 m ρ c (Proc.devRef .tc main_v1) = row (F := Ideal) (a1 m c) := (W4_of_ne m ρ c main_v1 (by decide)).trans (W3_v1 m ρ c)
theorem W4_v3 : W4 m ρ c (Proc.devRef .tc main_v3) = col (F := Ideal) (a1 m c) := (W4_of_ne m ρ c main_v3 (by decide)).trans (W3_v3 m ρ c)
theorem W4_v11 : W4 m ρ c (Proc.devRef .tc main_v11) = G m c := (W4_of_ne m ρ c main_v11 (by decide)).trans (W3_v11 m ρ c)
theorem W4_v23 : W4 m ρ c (Proc.devRef .tc main_v23) = D m c := (W4_of_ne m ρ c main_v23 (by decide)).trans (W3_v23 m ρ c)
theorem W4_arg0 : W4 m ρ c (Proc.devRef .tc main_arg0) = (a0 m c) := (W4_of_ne m ρ c main_arg0 (by decide)).trans (W3_arg0 m ρ c)
theorem W4_arg3 : W4 m ρ c (Proc.devRef .tc main_arg3) = (a3 m c) :=
  ((W4_arr m ρ c 4).trans (((dat0 (V3 m ρ) c).arrAt_in 4 rfl _).trans (A_eq0 (V3 m ρ) c 4))).trans (W3_arg3 m ρ c)
theorem W4_arg4 : W4 m ρ c (Proc.devRef .tc main_arg4) = (a4 m c) := (W4_of_ne m ρ c main_arg4 (by decide)).trans (W3_arg4 m ρ c)
theorem W4_arg5 : W4 m ρ c (Proc.devRef .tc main_arg5) = (a5 m c) := (W4_of_ne m ρ c main_arg5 (by decide)).trans (W3_arg5 m ρ c)
theorem W4_arg6 : W4 m ρ c (Proc.devRef .tc main_arg6) = (a6 m c) := (W4_of_ne m ρ c main_arg6 (by decide)).trans (W3_arg6 m ρ c)
theorem W4_arg9 : W4 m ρ c (Proc.devRef .tc main_arg9) = (a9 m c) := (W4_of_ne m ρ c main_arg9 (by decide)).trans (W3_arg9 m ρ c)
theorem W4_arg10 : W4 m ρ c (Proc.devRef .tc main_arg10) = (a10 m c) := (W4_of_ne m ρ c main_arg10 (by decide)).trans (W3_arg10 m ρ c)

/-! ## Entering the second kernel -/

theorem W9_v70 : W9 m ρ c (Proc.devRef .tc main_v70) = H m ρ c := by
  refine (mid_v70 (W4 m ρ c)).trans ?_
  rw [W4_arg0, W4_v3, W4_v23, W4_arg3, W4_arg4, W4_v57]; rfl
theorem W9_v82 : W9 m ρ c (Proc.devRef .tc main_v82) = D m c := by
  refine (mid_v82 (W4 m ρ c)).trans ?_
  rw [W4_v3, W4_v11]; rfl
theorem W9_v105 : W9 m ρ c (Proc.devRef .tc main_v105) = xrow (F := Ideal) (H m ρ c) (row (F := Ideal) (a1 m c)) := by
  refine (mid_v105 (W4 m ρ c)).trans ?_
  rw [W4_arg0, W4_v3, W4_v23, W4_arg3, W4_arg4, W4_v57, W4_v1]; rfl
theorem W9_v112 : W9 m ρ c (Proc.devRef .tc main_v112) = xcol (F := Ideal) (H m ρ c) (col (F := Ideal) (a1 m c)) := by
  refine (mid_v112 (W4 m ρ c)).trans ?_
  rw [W4_arg0, W4_v3, W4_v23, W4_arg3, W4_arg4, W4_v57]; rfl
theorem W9_v113 : W9 m ρ c (Proc.devRef .tc main_v113) = asCol (F := Ideal) (norm (F := Ideal) (D m c) (row (F := Ideal) (a1 m c)) (col (F := Ideal) (a1 m c)) (G m c)) := by
  refine (mid_v113 (W4 m ρ c)).trans ?_
  rw [W4_v3, W4_v11, W4_v1]; rfl
theorem W9_v114 : W9 m ρ c (Proc.devRef .tc main_v114) = asCol (F := Ideal) (ghet (F := Ideal) (G m c)) := by
  refine (mid_v114 (W4 m ρ c)).trans ?_
  rw [W4_v11]
theorem W9_v115 : W9 m ρ c (Proc.devRef .tc main_v115) = asRow (F := Ideal) (a10 m c) := by
  refine (mid_v115 (W4 m ρ c)).trans ?_
  rw [W4_arg10]
theorem W9_v3 : W9 m ρ c (Proc.devRef .tc main_v3) = col (F := Ideal) (a1 m c) := (mid_v3 (W4 m ρ c)).trans (W4_v3 m ρ c)
theorem W9_arg5 : W9 m ρ c (Proc.devRef .tc main_arg5) = (a5 m c) := (mid_arg5 (W4 m ρ c)).trans (W4_arg5 m ρ c)
theorem W9_arg6 : W9 m ρ c (Proc.devRef .tc main_arg6) = (a6 m c) := (mid_arg6 (W4 m ρ c)).trans (W4_arg6 m ρ c)
theorem W9_arg9 : W9 m ρ c (Proc.devRef .tc main_arg9) = (a9 m c) := (mid_arg9 (W4 m ρ c)).trans (W4_arg9 m ρ c)

/-- THE SECOND KERNEL'S OUTPUT: at edge e and channel k, the message of the second layer's arrays. -/
theorem M1_apply (e : Fin 1000000) (k : Fin 64) :
    M1 m ρ c (ix2 e k) = msgAt (xrow (F := Ideal) (H m ρ c) (row (F := Ideal) (a1 m c))) (xcol (F := Ideal) (H m ρ c) (col (F := Ideal) (a1 m c)))
      (asCol (F := Ideal) (norm (F := Ideal) (D m c) (row (F := Ideal) (a1 m c)) (col (F := Ideal) (a1 m c)) (G m c))) (asCol (F := Ideal) (ghet (F := Ideal) (G m c)))
      (a5 m c) (a9 m c) (asRow (F := Ideal) (a10 m c)) e k := by
  unfold M1
  rw [Cert.KernelIdeal.RegionValue.region1_apply (V9 m ρ) c e k]
  rw [show V9 m ρ c main_v105 = _ from W9_v105 m ρ c, show V9 m ρ c main_v112 = _ from W9_v112 m ρ c,
    show V9 m ρ c main_v113 = _ from W9_v113 m ρ c, show V9 m ρ c main_v114 = _ from W9_v114 m ρ c,
    show V9 m ρ c main_arg5 = _ from W9_arg5 m ρ c, show V9 m ρ c main_arg9 = _ from W9_arg9 m ρ c,
    show V9 m ρ c main_v115 = _ from W9_v115 m ρ c]

/-! ## Leaving the second kernel, and the result -/

theorem W10_v116 : W10 m ρ c (Proc.devRef .tc main_v116) = M1 m ρ c := W10_arr m ρ c 7
theorem W10_v70 : W10 m ρ c (Proc.devRef .tc main_v70) = H m ρ c := (W10_of_ne m ρ c main_v70 (by decide)).trans (W9_v70 m ρ c)
theorem W10_v82 : W10 m ρ c (Proc.devRef .tc main_v82) = D m c := (W10_of_ne m ρ c main_v82 (by decide)).trans (W9_v82 m ρ c)
theorem W10_v3 : W10 m ρ c (Proc.devRef .tc main_v3) = col (F := Ideal) (a1 m c) := (W10_of_ne m ρ c main_v3 (by decide)).trans (W9_v3 m ρ c)
theorem W10_arg5 : W10 m ρ c (Proc.devRef .tc main_arg5) = (a5 m c) :=
  ((W10_arr m ρ c 4).trans (((dat1 (V9 m ρ) c).arrAt_in 4 rfl _).trans (A_eq1 (V9 m ρ) c 4))).trans (W9_arg5 m ρ c)
theorem W10_arg6 : W10 m ρ c (Proc.devRef .tc main_arg6) = (a6 m c) := (W10_of_ne m ρ c main_arg6 (by decide)).trans (W9_arg6 m ρ c)

/-- THE PROGRAM'S RESULT: the second layer's sums over the second kernel's messages. -/
theorem result_eq : W11 m ρ c (Proc.devRef .tc main_v128)
    = post (F := Ideal) (H m ρ c) (col (F := Ideal) (a1 m c)) (D m c) (a5 m c) (a6 m c) (M1 m ρ c) := by
  refine (tail_v128 (W10 m ρ c)).trans ?_
  rw [W10_v70, W10_v3, W10_v82, W10_arg5, W10_arg6, W10_v116]

end Cert.KernelIdeal.Whole

end
-- ==== Proof.RefLayerDefs.lean ====
/-
  One layer of the reference's curvature-gated graph convolution, as a function of the arrays it reads, and the
  reference program's two layers as two instances of it.

  The reference computes, per layer, from node features x [50000, 64], the edge list x1 [2, 1000000] (row 0 the source
  words, row 1 the target words), the edge gate g [1000000] and the weights W, b (homophilous) and Wh, bh
  (heterophilous):
    * the extended edge list: the 1000000 edges followed by one self loop per node (source and target words
      concatenated with 0, 1, …, 49999; the weights g concatenated with 50000 ones)                       -- wA
    * deg   = the weights scatter-added at the extended target words, into zeros [50000]                   -- deg
    * dinv  = where deg > 0 then deg ^ (−1/2) else 0                                                       -- dinvOf
    * nrm   = dinv[source'] · w · dinv[target'] over the extended list (negative words wrapped)            -- nrmA
    * homo  = (nrm[:, None] · (x W)[source']) scatter-added at the extended target words, plus b           -- homo
    * het   = ((1 − g)[:, None] · (|x[target] − x[source]| Wh + bh)) scatter-added at the target words     -- hetero
    * layer = homo + het;   relu a = max a 0.
  The gate itself is g = 1 / (1 + exp (−(c / 5))) of the edge curvature c.

  Every definition below is the program's own operations in the program's order, with the arrays that depend only
  on the edge list taken from the generated stage functions. The program's first layer is layer at (x, gate c) and its
  second layer is layer at (relu of the first, gate c): both by unfolding the stage functions.
-/
import proofs.«152795_j88356067213584_1_alg».proof.Proof.Gen.ReferenceIdeal.Read

noncomputable section

namespace Cert.ReferenceIdeal.RefLayer

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The edge gate 1 / (1 + exp (−(c / 5))) of the edge curvature c. -/
def gate (c : (⟨S1000000, .f32⟩ : BufTy).Contents (Elt F)) : (⟨S1000000, .f32⟩ : BufTy).Contents (Elt F) :=
  Host.divf (val_main_v10 (F := F)) (addf (val_main_v8 (F := F)) (Host.exp (Host.negf (Host.divf c (val_main_v4 (F := F))))))

/-- The weights of the extended edge list: the gate on the edges, then one unit weight per self loop. -/
def wA (g : (⟨S1000000, .f32⟩ : BufTy).Contents (Elt F)) : (⟨S1050000, .f32⟩ : BufTy).Contents (Elt F) :=
  concatenate S1050000 0 [⟨S1000000, g⟩, ⟨S50000, (val_main_v17 (F := F))⟩] concatenates_S1000000_S50000_S1050000_d0

/-- The gated in-degree: the extended weights added up at the extended target words. -/
def deg (x1 : (⟨S2x1000000, .i32⟩ : BufTy).Contents (Elt F)) (g : (⟨S1000000, .f32⟩ : BufTy).Contents (Elt F)) : (⟨S50000, .f32⟩ : BufTy).Contents (Elt F) :=
  Host.scatterAdd scatter_S50000_S1050000x1_S1050000_n_0_0_1 (val_main_v19 (F := F)) (val_main_v20 (F := F) x1) (wA g)

/-- The inverse square root of a degree array where it is positive, zero elsewhere. -/
def dinvOf (d : (⟨S50000, .f32⟩ : BufTy).Contents (Elt F)) : (⟨S50000, .f32⟩ : BufTy).Contents (Elt F) :=
  select (cmpf .ogt d (val_main_v22 (F := F))) (Host.powf d (val_main_v24 (F := F))) (val_main_call0_v1 (F := F))

/-- The symmetric normalisation weight of every extended edge: dinv at its source, times its weight, times dinv at its target. -/
def nrmA (x1 : (⟨S2x1000000, .i32⟩ : BufTy).Contents (Elt F)) (g : (⟨S1000000, .f32⟩ : BufTy).Contents (Elt F)) : (⟨S1050000, .f32⟩ : BufTy).Contents (Elt F) :=
  mulf (mulf (Host.gather gather_S50000_S1050000x1_S1050000_n_0_n_n_0_1_1 (dinvOf (deg x1 g)) (val_main_v32 (F := F) x1)) (wA g))
    (Host.gather gather_S50000_S1050000x1_S1050000_n_0_n_n_0_1_1 (dinvOf (deg x1 g)) (val_main_v40 (F := F) x1))

/-- The normalised convolution: rows of x W gathered at the extended sources, scaled, added up at the extended targets, plus the bias. -/
def homo (x : (⟨S50000x64, .f32⟩ : BufTy).Contents (Elt F)) (x1 : (⟨S2x1000000, .i32⟩ : BufTy).Contents (Elt F)) (g : (⟨S1000000, .f32⟩ : BufTy).Contents (Elt F))
    (W : (⟨S64x64, .f32⟩ : BufTy).Contents (Elt F)) (b : (⟨S64, .f32⟩ : BufTy).Contents (Elt F)) : (⟨S50000x64, .f32⟩ : BufTy).Contents (Elt F) :=
  addf (Host.scatterAdd scatter_S50000x64_S1050000x1_S1050000x64_1_0_0_1 (val_main_v54 (F := F)) (val_main_v55 (F := F) x1)
      (mulf (broadcastInDim S1050000x64 ![0, 1] bcast_S1050000x1_S1050000x64_0_1
          (broadcastInDim S1050000x1 ![0] bcast_S1050000_S1050000x1_0 (nrmA x1 g)))
        (Host.gather gather_S50000x64_S1050000x1_S1050000x64_1_0_n_n_0_1_164 (val_main_v43 (F := F) x W) (val_main_v50 (F := F) x1))))
    (val_main_v58 (F := F) b)

/-- The gated difference convolution: (1 − g) times the linear map of |x[target] − x[source]|, added up at the targets. -/
def hetero (x : (⟨S50000x64, .f32⟩ : BufTy).Contents (Elt F)) (x1 : (⟨S2x1000000, .i32⟩ : BufTy).Contents (Elt F)) (g : (⟨S1000000, .f32⟩ : BufTy).Contents (Elt F))
    (Wh : (⟨S64x64, .f32⟩ : BufTy).Contents (Elt F)) (bh : (⟨S64, .f32⟩ : BufTy).Contents (Elt F)) : (⟨S50000x64, .f32⟩ : BufTy).Contents (Elt F) :=
  Host.scatterAdd scatter_S50000x64_S1000000x1_S1000000x64_1_0_0_1 (val_main_v83 (F := F)) (val_main_v84 (F := F) x1)
    (mulf (broadcastInDim S1000000x64 ![0, 1] bcast_S1000000x1_S1000000x64_0_1
        (broadcastInDim S1000000x1 ![0] bcast_S1000000_S1000000x1_0 (subf (val_main_v12 (F := F)) g)))
      (val_main_v80 (F := F) x x1 Wh bh))

/-- One layer: the two convolutions added. -/
def layer (x : (⟨S50000x64, .f32⟩ : BufTy).Contents (Elt F)) (x1 : (⟨S2x1000000, .i32⟩ : BufTy).Contents (Elt F)) (g : (⟨S1000000, .f32⟩ : BufTy).Contents (Elt F))
    (W : (⟨S64x64, .f32⟩ : BufTy).Contents (Elt F)) (b : (⟨S64, .f32⟩ : BufTy).Contents (Elt F)) (Wh : (⟨S64x64, .f32⟩ : BufTy).Contents (Elt F)) (bh : (⟨S64, .f32⟩ : BufTy).Contents (Elt F)) : (⟨S50000x64, .f32⟩ : BufTy).Contents (Elt F) :=
  addf (homo x x1 g W b) (hetero x x1 g Wh bh)

/-- max a 0, entry by entry. -/
def relu (a : (⟨S50000x64, .f32⟩ : BufTy).Contents (Elt F)) : (⟨S50000x64, .f32⟩ : BufTy).Contents (Elt F) :=
  maximumf a (val_main_call1_v0 (F := F))

section Program

variable (x0 : (⟨S50000x64, .f32⟩ : BufTy).Contents (Elt F)) (x1 : (⟨S2x1000000, .i32⟩ : BufTy).Contents (Elt F)) (x2 : (⟨S1000000, .f32⟩ : BufTy).Contents (Elt F))
  (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F))
  (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F))

/-- The program's first layer is the layer at the input features and the gate of the curvature. -/
theorem v86_eq_layer : val_main_v86 (F := F) x0 x1 x2 x3 x4 x7 x8 = layer x0 x1 (gate x2) x3 x4 x7 x8 := rfl

/-- The program's activation is relu of its first layer. -/
theorem v87_eq_relu : val_main_v87 (F := F) x0 x1 x2 x3 x4 x7 x8 = relu (val_main_v86 (F := F) x0 x1 x2 x3 x4 x7 x8) := rfl

/-- The program's result is the same layer at the activation, with the second pair of weights. -/
theorem v160_eq_layer : val_main_v160 (F := F) x0 x1 x2 x3 x4 x5 x6 x7 x8 x9 x10
    = layer (val_main_v87 (F := F) x0 x1 x2 x3 x4 x7 x8) x1 (gate x2) x5 x6 x9 x10 := rfl

end Program

end Cert.ReferenceIdeal.RefLayer

end
-- ==== Proof.LibGatherRows.lean ====
/-
  A gather whose start indices are one column of row numbers, read at an index.

  The start indices have shape [E, 1]: result row e is operand row idx[e, 0], read as a SIGNED integer and clamped
  into [0, N − 1] (a negative number reads row 0, a number past the end reads the last row). For an operand [N, C]
  gathered in whole rows (slice sizes [1, C], the row axis collapsed, the column axis the offset axis) the result at
  (e, k) is the operand at (clamped idx[e, 0], k) (host_gather_rows_apply); for an operand [N] (slice sizes [1]) the
  result at e is the operand at the clamped idx[e, 0] (host_gather_vec_apply). This is what x[idx] lowers to for
  an index vector idx. Both follow from reading the operand index one axis at a time: on the row axis it is the
  clamped start index, on the column axis the result's own column.
-/
import Idealize.ShloMosaic.PureOps
import Idealize.ShloMosaic.Lib.ValueIdx

noncomputable section

namespace Cert.GatherRows

open Idealize.ShloMosaic Idealize.ShloMosaic.ValueIdx

/-- The row a signed row number reads: clamped into [0, N − 1]. -/
def clampRow (N : Nat) (hN : 0 < N) {w : Nat} (b : BitVec w) : Fin N := ⟨min b.toInt.toNat (N - 1), by omega⟩

theorem clampRow_val (N : Nat) (hN : 0 < N) {w : Nat} (b : BitVec w) : (clampRow N hN b).val = min b.toInt.toNat (N - 1) := rfl

/-- A row number already inside [0, N) reads its own row. -/
theorem clampRow_of_toInt (N : Nat) (hN : 0 < N) {w : Nat} (b : BitVec w) (v : Fin N) (h : b.toInt = (v.val : Int)) :
    clampRow N hN b = v := by
  apply Fin.ext
  rw [clampRow_val, h]
  have := v.isLt
  omega

/-! ## Whole rows of width C -/

section Rows
variable {α : Type} {N E C w : Nat}

/-- The dimension numbers of a row gather: operand [N, C], start indices [E, 1], result [E, C]. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![E, 1]⟩ ⟨2, ![E, C]⟩ [1] [0] [] [0] [] 1 ![1, C])

/-- The operand index of result (e, k): the clamped row number, and column k. -/
theorem row_operandIdx (hN : 0 < N) (idx : IVec ⟨2, ![E, 1]⟩ w) (e : Fin E) (k : Fin C) :
    (rowDims N E C wf).operandIdx (ix2 e k) idx = ix2 (clampRow N hN (idx (ix2 e 0))) k := by
  funext a
  refine Fin.ext ?_
  match a with
  | ⟨0, _⟩ =>
    show (rowDims N E C wf).start (ix2 e k) idx 0 + (rowDims N E C wf).batchCoord (ix2 e k) 0 + (rowDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e k) ⟨List.idxOf (0 : Fin 2) (rowDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N E C wf).start (ix2 e k) idx 1 + (rowDims N E C wf).batchCoord (ix2 e k) 1 + (rowDims N E C wf).offCoord (ix2 e k) 1 = k.val
    rw [GatherDims.batchCoord_eq_zero _ _ _ List.not_mem_nil]
    unfold GatherDims.start
    rw [dif_neg (show ¬ (1 : Fin 2) ∈ (rowDims N E C wf).startIndexMap from (show ¬ (1 : Fin 2) ∈ ([0] : List (Fin 2)) by decide))]
    unfold GatherDims.offCoord
    rw [dif_pos (show (1 : Fin 2) ∈ (rowDims N E C wf).sKept from
      (GatherDims.mem_sKept _ _).mpr ⟨(show ¬ (1 : Fin 2) ∈ ([0] : List (Fin 2)) by decide), List.not_mem_nil⟩)]
    simp only [Nat.zero_add]
    rfl

/-- THE ROW GATHER READ AT (e, k): the operand at (clamped idx[e, 0], k), for ANY dimension numbers of a row gather (a
    program's own record: its seven fields are these by unfolding). -/
theorem host_gather_rows_apply (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (k : Fin C) :
    Host.gather d x idx (ix2 e k) = x (ix2 (clampRow N hN (idx (ix2 e 0))) k) := by
  obtain ⟨od, cs, ob, sb, sm, iv, ss, wf⟩ := d
  dsimp only at h1 h2 h3 h4 h5 h6 h7
  subst h1 h2 h3 h4 h5 h6 h7
  unfold Host.gather
  exact congrArg x (row_operandIdx wf hN idx e k)

end Rows

/-! ## Scalars -/

section Vec
variable {α : Type} {N E w : Nat}

/-- The dimension numbers of the rank-1 form: operand [N], start indices [E, 1], result [E]. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable (wf : GatherDims.WF ⟨1, ![N]⟩ ⟨2, ![E, 1]⟩ ⟨1, ![E]⟩ [] [0] [] [0] [] 1 ![1])

/-- The operand index of result e: the clamped row number. -/
theorem vec_operandIdx (hN : 0 < N) (idx : IVec ⟨2, ![E, 1]⟩ w) (e : Fin E) :
    (vecDims N E wf).operandIdx (ix1 e) idx = ix1 (clampRow N hN (idx (ix2 e 0))) := by
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE RANK-1 GATHER READ AT e: the operand at the clamped idx[e, 0], for ANY dimension numbers of that form. -/
theorem host_gather_vec_apply (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (clampRow N hN (idx (ix2 e 0)))) := by
  obtain ⟨od, cs, ob, sb, sm, iv, ss, wf⟩ := d
  dsimp only at h1 h2 h3 h4 h5 h6 h7
  subst h1 h2 h3 h4 h5 h6 h7
  unfold Host.gather
  exact congrArg x (vec_operandIdx wf hN idx e)

end Vec

end Cert.GatherRows

end
-- ==== Proof.Formula.lean ====
/-
  One layer of the curvature-gated graph convolution, at one node and one output channel, over the extended reals.

  Nodes 0 … 49999 carry 64 features; edge e of 1000000 runs from the node its source word names to the node its
  target word names. A word names a node as array indexing reads it: a negative number counts from the end
  (wrap), and the result is clamped into the node range (node). An edge's message is ADDED at its target word
  read as a plain signed number, and dropped when that number is no node (into v: the edges added at v).
  With dinv the inverse square root of the gated in-degree, g the edge gate, W, b and Wh, bh the two linear maps:

    layerK  — every edge sends ONE message, the normalised homophilous part plus the gated heterophilous part,
              and the node adds its own self loop dinv v · dinv v · (x W) v afterwards;
    layerR  — the homophilous parts and the self loop (weight 1) are summed together, the bias added, and the
              heterophilous parts, computed with the difference taken the other way round, are summed apart.

  The two agree (layerK_eq_layerR): addition on the extended reals is commutative and associative, a sum of sums
  is the sum of the two sums, x · 1 = x, and |a − b| = |b − a| (absdiff_comm, by cases on the infinities).
  Likewise the two spellings of the degree (degK_eq_degR).
-/
import Mathlib
import Idealize.ShloMosaic.PureOps.Ideal
import Idealize.ShloMosaic.Lib.ValueIdx
import proofs.«152795_j88356067213584_1_alg».proof.Proof.LibGatherRows

noncomputable section

open scoped BigOperators

namespace Cert.MsgPass

open Idealize.ShloMosaic Idealize.ShloMosaic.ValueIdx

/-- A node number as array indexing reads it: a negative word counts from the end. -/
def wrap (w : BitVec 32) : BitVec 32 := Scalar.select (IntOp.cmpi .slt w 0#32) (IntOp.addi w 50000#32) w

/-- The node a gathered index word names: wrapped, then clamped into the node range. -/
def node (w : BitVec 32) : Fin 50000 := Cert.GatherRows.clampRow 50000 (by decide) (wrap w)

section Layer

variable (x : (⟨2, ![50000, 64]⟩ : Shape).Idx → EReal) (x1 : (⟨2, ![2, 1000000]⟩ : Shape).Idx → BitVec 32)
  (g : (⟨1, ![1000000]⟩ : Shape).Idx → EReal) (dinv : (⟨1, ![50000]⟩ : Shape).Idx → EReal)
  (W Wh : (⟨2, ![64, 64]⟩ : Shape).Idx → EReal) (b bh : (⟨1, ![64]⟩ : Shape).Idx → EReal)

/-- The source node of edge e. -/
def src (e : Fin 1000000) : Fin 50000 := node (x1 (ix2 0 e))
/-- The target node of edge e, as a gather reads it. -/
def dst (e : Fin 1000000) : Fin 50000 := node (x1 (ix2 1 e))
/-- The edges whose message is added at node v: the target word, read signed and unclamped, is v. -/
def into (v : Fin 50000) : Finset (Fin 1000000) :=
  Finset.univ.filter fun e : Fin 1000000 => (x1 (ix2 1 e)).toInt = (v.val : Int)

/-- Row p of x · W at channel k. -/
def xw (p : Fin 50000) (k : Fin 64) : EReal := ∑ j : Fin 64, x (ix2 p j) * W (ix2 j k)
/-- The symmetric normalisation weight of edge e. -/
def nrm (e : Fin 1000000) : EReal := dinv (ix1 (src x1 e)) * g (ix1 e) * dinv (ix1 (dst x1 e))
/-- The heterophilous linear map of |x a − x c| at channel k, bias included. -/
def het (a c : Fin 50000) (k : Fin 64) : EReal :=
  (∑ j : Fin 64, max (x (ix2 a j) - x (ix2 c j)) (-(x (ix2 a j) - x (ix2 c j))) * Wh (ix2 j k)) + bh (ix1 k)

/-- The layer as the fused edge kernel and its surrounding sums compute it. -/
def layerK (v : Fin 50000) (k : Fin 64) : EReal :=
  ((0 + ∑ e ∈ into x1 v, (nrm x1 g dinv e * xw x W (src x1 e) k + (1 - g (ix1 e)) * het x Wh bh (src x1 e) (dst x1 e) k))
      + (dinv (ix1 v) * dinv (ix1 v)) * xw x W v k) + b (ix1 k)

/-- The layer as two convolutions added: the normalised one with its self loops, and the gated difference one. -/
def layerR (v : Fin 50000) (k : Fin 64) : EReal :=
  ((0 + ((∑ e ∈ into x1 v, nrm x1 g dinv e * xw x W (src x1 e) k) + (dinv (ix1 v) * 1 * dinv (ix1 v)) * xw x W v k)) + b (ix1 k))
    + (0 + ∑ e ∈ into x1 v, (1 - g (ix1 e)) * het x Wh bh (dst x1 e) (src x1 e) k)

/-- The gated in-degree with the self loop added afterwards … -/
def degK (v : Fin 50000) : EReal := (0 + ∑ e ∈ into x1 v, g (ix1 e)) + 1
/-- … and with the self loop summed among the edges. -/
def degR (v : Fin 50000) : EReal := 0 + ((∑ e ∈ into x1 v, g (ix1 e)) + 1)

end Layer

/-- On the extended reals |a − b| = |b − a|, the absolute value written max x (−x): for two reals it is the reals'
    law; when an infinity is involved both sides are +∞. -/
theorem absdiff_comm (a c : EReal) : max (a - c) (-(a - c)) = max (c - a) (-(c - a)) := by
  induction a using EReal.rec <;> induction c using EReal.rec
  all_goals first
    | (rename_i p q
       rw [← EReal.coe_sub, ← EReal.coe_sub, ← EReal.coe_neg, ← EReal.coe_neg, neg_sub, neg_sub, max_comm])
    | simp

section Agree

variable (x : (⟨2, ![50000, 64]⟩ : Shape).Idx → EReal) (x1 : (⟨2, ![2, 1000000]⟩ : Shape).Idx → BitVec 32)
  (g : (⟨1, ![1000000]⟩ : Shape).Idx → EReal) (dinv : (⟨1, ![50000]⟩ : Shape).Idx → EReal)
  (W Wh : (⟨2, ![64, 64]⟩ : Shape).Idx → EReal) (b bh : (⟨1, ![64]⟩ : Shape).Idx → EReal)

/-- The difference can be taken either way round. -/
theorem het_comm (a c : Fin 50000) (k : Fin 64) : het x Wh bh a c k = het x Wh bh c a k := by
  unfold het
  congr 1
  refine Finset.sum_congr rfl fun j _ => ?_
  rw [absdiff_comm]

theorem degK_eq_degR (v : Fin 50000) : degK x1 g v = degR x1 g v := by
  unfold degK degR
  rw [add_assoc]

/-- THE LAYER'S TWO ARRANGEMENTS AGREE. -/
theorem layerK_eq_layerR (v : Fin 50000) (k : Fin 64) :
    layerK x x1 g dinv W Wh b bh v k = layerR x x1 g dinv W Wh b bh v k := by
  unfold layerK layerR
  rw [Finset.sum_add_distrib, mul_one]
  have hh : ∀ e, het x Wh bh (src x1 e) (dst x1 e) k = het x Wh bh (dst x1 e) (src x1 e) k := fun e => het_comm x Wh bh _ _ k
  simp only [hh]
  simp only [zero_add]
  abel

end Agree

end Cert.MsgPass

end
-- ==== Proof.LibScatterRows.lean ====
/-
  An accumulating scatter whose scatter indices are one column of row numbers, read at an index over the extended reals.

  The scatter indices have shape [E, 1]: update row e goes to operand row idx[e, 0], read as a SIGNED integer and
  not clamped; a row number outside [0, N) drops the whole update row. With the exact sum as the combiner, the
  result at (v, k) is the operand's entry plus the sum of upd[e, k] over the update rows e with idx[e, 0] = v
  (rowDims, scatterAdd_rows_apply). The rank-1 form — operand [N], updates [E] — is the same sum without the
  column (vecDims, scatterAdd_vec_apply). Both follow from reading the scatter's result index one axis at a time:
  on the row axis it is the start index, on the column axis the update's own column.
-/
import Idealize.ShloMosaic.PureOps.Ideal
import Idealize.ShloMosaic.Lib.ValueIdx

noncomputable section

open scoped BigOperators

namespace Cert.ScatterRows

open Idealize.ShloMosaic Idealize.ShloMosaic.ValueIdx

/-! ## Rows of width C scattered by one index column -/

/-- The dimension numbers of a row scatter: operand [N, C], scatter indices [E, 1], updates [E, C]; the updates'
    axis 1 is the window axis, the operand's axis 0 is inserted and is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- On the row axis the window starts at the row number the index column holds for the update's row. -/
theorem row_start0 (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the index names nothing: the window starts at column 0. -/
theorem row_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    (show ¬ (1 : Fin 2) ∈ ([0] : List (Fin 2)) by decide))]

/-- The row axis is inserted: no window coordinate on it. -/
theorem row_window0 (j : (⟨2, ![E, C]⟩ : Shape).Idx) : (rowDims N E C wf).window j 0 = 0 := by
  unfold ScatterDims.window
  rw [dif_neg (show ¬ (0 : Fin 2) ∈ (rowDims N E C wf).sKept from
    (show ¬ (0 : Fin 2) ∈ ([1] : List (Fin 2)) by decide))]

/-- On the column axis the window coordinate is the update's own column. -/
theorem row_window1 (j : (⟨2, ![E, C]⟩ : Shape).Idx) : (rowDims N E C wf).window j 1 = (j 1).val := by
  unfold ScatterDims.window
  rw [dif_pos (show (1 : Fin 2) ∈ (rowDims N E C wf).sKept from
    (show (1 : Fin 2) ∈ ([1] : List (Fin 2)) by decide))]
  rfl

/-- WHERE AN UPDATE LANDS: update (e, c) lands on operand (v, k) exactly when the index column holds v at e and c = k. -/
theorem row_lands_iff (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  have hi0 : (i 0).val < N := idx2_lt0 i
  have hi1 : (i 1).val < C := idx2_lt1 i
  have hj1 : (j 1).val < C := idx2_lt1 j
  have hs0 : (⟨2, ![N, C]⟩ : Shape).size 0 = N := rfl
  have hs1 : (⟨2, ![N, C]⟩ : Shape).size 1 = C := rfl
  unfold ScatterDims.resultIdx?
  split
  · rename_i h
    have h0 := h 0
    have h1 := h 1
    rw [row_start0, row_window0] at h0
    rw [row_start1, row_window1] at h1
    rw [Option.some.injEq]
    constructor
    · intro he
      have e0 := congrArg (fun f => (f 0).val) he
      have e1 := congrArg (fun f => (f 1).val) he
      simp only [row_start0, row_window0, row_start1, row_window1] at e0 e1
      constructor <;> omega
    · rintro ⟨e0, e1⟩
      funext a
      refine Fin.ext ?_
      match a with
      | ⟨0, _⟩ =>
        show ((rowDims N E C wf).start j idx 0 + ((rowDims N E C wf).window j 0 : Int)).toNat = (i 0).val
        rw [row_start0, row_window0]; omega
      | ⟨1, _⟩ =>
        show ((rowDims N E C wf).start j idx 1 + ((rowDims N E C wf).window j 1 : Int)).toNat = (i 1).val
        rw [row_start1, row_window1]; omega
  · rename_i h
    constructor
    · intro he; exact absurd he (by simp)
    · rintro ⟨e0, e1⟩
      refine absurd (fun a => ?_) h
      match a with
      | ⟨0, _⟩ =>
        show 0 ≤ (rowDims N E C wf).start j idx 0 + ((rowDims N E C wf).window j 0 : Int) ∧
          (rowDims N E C wf).start j idx 0 + ((rowDims N E C wf).window j 0 : Int) < ((⟨2, ![N, C]⟩ : Shape).size 0 : Int)
        rw [row_start0, row_window0, hs0]; omega
      | ⟨1, _⟩ =>
        show 0 ≤ (rowDims N E C wf).start j idx 1 + ((rowDims N E C wf).window j 1 : Int) ∧
          (rowDims N E C wf).start j idx 1 + ((rowDims N E C wf).window j 1 : Int) < ((⟨2, ![N, C]⟩ : Shape).size 1 : Int)
        rw [row_start1, row_window1, hs1]; omega

/-- THE ROW SCATTER READ AT (v, k): the operand's entry plus the sum of column k of the update rows whose row number is v. -/
theorem scatterAdd_rows_apply (x : (⟨2, ![N, C]⟩ : Shape).Idx → EReal) (idx : IVec ⟨2, ![E, 1]⟩ w)
    (upd : (⟨2, ![E, C]⟩ : Shape).Idx → EReal) (v : Fin N) (k : Fin C) :
    Ideal.hostScatterAdd (rowDims N E C wf) x idx upd (ix2 v k) =
      x (ix2 v k) + ∑ e ∈ Finset.univ.filter (fun e : Fin E => (idx (ix2 e 0)).toInt = (v.val : Int)), upd (ix2 e k) := by
  unfold Ideal.hostScatterAdd
  congr 1
  rw [Finset.sum_filter, sum_idx2, Finset.sum_filter]
  refine Finset.sum_congr rfl fun e _ => ?_
  simp only [row_lands_iff]
  by_cases he : (idx (ix2 e 0)).toInt = (v.val : Int)
  · rw [if_pos he]
    rw [Finset.sum_eq_single k]
    · rw [if_pos ⟨he, rfl⟩]
    · intro b _ hb
      rw [if_neg]
      rintro ⟨_, h1⟩
      exact hb (Fin.ext h1)
    · intro h; exact absurd (Finset.mem_univ k) h
  · rw [if_neg he]
    refine Finset.sum_eq_zero fun b _ => ?_
    rw [if_neg]
    rintro ⟨h0, _⟩
    exact he h0

/-- The same for ANY dimension numbers of a row scatter (a program's own record: its four fields are these by
    unfolding), stated for the host operation at the extended reals. -/
theorem host_scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (v : Fin N) (k : Fin C) :
    Host.scatterAdd d x idx upd (ix2 v k) =
      x (ix2 v k) + ∑ e ∈ Finset.univ.filter (fun e : Fin E => (idx (ix2 e 0)).toInt = (v.val : Int)), upd (ix2 e k) := by
  obtain ⟨uw, iw, sd, iv, wf⟩ := d
  dsimp only at h1 h2 h3 h4
  subst h1 h2 h3 h4
  unfold Host.scatterAdd
  rw [Ideal.hostScatterAdd_def]
  exact scatterAdd_rows_apply wf x idx upd v k

end Rows

/-! ## Scalars scattered by one index column -/

/-- The dimension numbers of the rank-1 form: operand [N], scatter indices [E, 1], updates [E]; no window axis. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

theorem vec_start0 (j : (⟨1, ![E]⟩ : Shape).Idx) (idx : IVec ⟨2, ![E, 1]⟩ w) :
    (vecDims N E wf).start j idx 0 = (idx (ix2 (j 0) 0)).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window0 (j : (⟨1, ![E]⟩ : Shape).Idx) : (vecDims N E wf).window j 0 = 0 := by
  unfold ScatterDims.window
  rw [dif_neg (show ¬ (0 : Fin 1) ∈ (vecDims N E wf).sKept from
    (show ¬ (0 : Fin 1) ∈ ([] : List (Fin 1)) by decide))]

/-- WHERE AN UPDATE LANDS: update e lands on operand v exactly when the index column holds v at e. -/
theorem vec_lands_iff (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  have hi0 : (i 0).val < N := (i 0).isLt
  have hs0 : (⟨1, ![N]⟩ : Shape).size 0 = N := rfl
  unfold ScatterDims.resultIdx?
  split
  · rename_i h
    have h0 := h 0
    rw [vec_start0, vec_window0] at h0
    rw [Option.some.injEq]
    constructor
    · intro he
      have e0 := congrArg (fun f => (f 0).val) he
      simp only [vec_start0, vec_window0] at e0
      omega
    · intro e0
      funext a
      refine Fin.ext ?_
      match a with
      | ⟨0, _⟩ =>
        show ((vecDims N E wf).start j idx 0 + ((vecDims N E wf).window j 0 : Int)).toNat = (i 0).val
        rw [vec_start0, vec_window0]; omega
  · rename_i h
    constructor
    · intro he; exact absurd he (by simp)
    · intro e0
      refine absurd (fun a => ?_) h
      match a with
      | ⟨0, _⟩ =>
        show 0 ≤ (vecDims N E wf).start j idx 0 + ((vecDims N E wf).window j 0 : Int) ∧
          (vecDims N E wf).start j idx 0 + ((vecDims N E wf).window j 0 : Int) < ((⟨1, ![N]⟩ : Shape).size 0 : Int)
        rw [vec_start0, vec_window0, hs0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE RANK-1 SCATTER READ AT v: the operand's entry plus the sum of the updates whose row number is v. -/
theorem scatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v) =
      x (ix1 v) + ∑ e ∈ Finset.univ.filter (fun e : Fin E => (idx (ix2 e 0)).toInt = (v.val : Int)), upd (ix1 e) := by
  unfold Ideal.hostScatterAdd
  congr 1
  rw [Finset.sum_filter, Finset.sum_filter, ← Equiv.sum_comp (idxEquiv1 (n := E)).symm]
  refine Finset.sum_congr rfl fun e _ => ?_
  simp only [vec_lands_iff]
  rfl

/-- The same for ANY dimension numbers of the rank-1 form, stated for the host operation at the extended reals. -/
theorem host_scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (v : Fin N) :
    Host.scatterAdd d x idx upd (ix1 v) =
      x (ix1 v) + ∑ e ∈ Finset.univ.filter (fun e : Fin E => (idx (ix2 e 0)).toInt = (v.val : Int)), upd (ix1 e) := by
  obtain ⟨uw, iw, sd, iv, wf⟩ := d
  dsimp only at h1 h2 h3 h4
  subst h1 h2 h3 h4
  unfold Host.scatterAdd
  rw [Ideal.hostScatterAdd_def]
  exact scatterAdd_vec_apply wf x idx upd v

end Vec

end Cert.ScatterRows

end
-- ==== Proof.KLayer.lean ====
/-
  The kernel program's host-side stages read at an index, over the extended reals.

  Each stage of KDefs.lean is read at one element: the edge words are rows 0 and 1 of the edge list; a gather at the
  wrapped words reads the node the word names; the normalisation weight of edge e is dinv[src e] · g e · dinv[dst e];
  the degree at node v is the sum of the gates of the edges added at v, plus one. With the message array M
  holding, at edge e and channel k, the message of the arrays the edge kernel is given, the layer's result at (v, k)
  is the sum of the messages added at v, plus the self loop, plus the bias: Formula.lean's layerK.
-/
import proofs.«152795_j88356067213584_1_alg».proof.Proof.KDefs
import proofs.«152795_j88356067213584_1_alg».proof.Proof.Formula
import proofs.«152795_j88356067213584_1_alg».proof.Proof.Msg
import proofs.«152795_j88356067213584_1_alg».proof.Proof.LibScatterRows
import proofs.«152795_j88356067213584_1_alg».proof.Proof.LibGatherRows
import proofs.«152795_j88356067213584_1_alg».proof.Proof.LibPlainDot
import Idealize.ShloMosaic.Lib.Pipeline.Value
import Idealize.ShloMosaic.Lib.IdealHost

noncomputable section

open scoped BigOperators

namespace Cert.KernelIdeal.KRead

open Idealize.ShloMosaic Idealize.ShloMosaic.ValueIdx
open Cert.KernelIdeal Cert.KernelIdeal.Gen Cert.KernelIdeal.KV Cert.MsgPass

/-! ## The edge words -/

/-- The source word of edge e is entry (0, e) of the edge list. -/
theorem row_apply (x1 : IVec S2x1000000 32) (e : Fin 1000000) : row (F := Ideal) x1 (ix1 e) = x1 (ix2 0 e) := by
  unfold row
  refine (shapeCast_apply _ shapeCasts_S1x1000000_S1000000 (ix1 e) (ix2 (0 : Fin 1) e) ?_).trans ?_
  · rewrite [Shape.rowMajor_val_two, Shape.rowMajor_val_one]; show 0 * 1000000 + e.val = e.val; omega
  · exact extractStridedSlice_apply ![0, 0] x1 slices_S2x1000000_S1x1000000_0_0 (ix2 (0 : Fin 1) e) (ix2 (0 : Fin 2) e) (fun a => match a with
      | ⟨0, _⟩ => by show (0 : Nat) = 0 + 0; rfl
      | ⟨1, _⟩ => by show e.val = 0 + e.val; omega)

/-- The target word of edge e is entry (1, e) of the edge list. -/
theorem col_apply (x1 : IVec S2x1000000 32) (e : Fin 1000000) : col (F := Ideal) x1 (ix1 e) = x1 (ix2 1 e) := by
  unfold col
  refine (shapeCast_apply _ shapeCasts_S1x1000000_S1000000 (ix1 e) (ix2 (0 : Fin 1) e) ?_).trans ?_
  · rewrite [Shape.rowMajor_val_two, Shape.rowMajor_val_one]; show 0 * 1000000 + e.val = e.val; omega
  · exact extractStridedSlice_apply ![1, 0] x1 slices_S2x1000000_S1x1000000_1_0 (ix2 (0 : Fin 1) e) (ix2 (1 : Fin 2) e) (fun a => match a with
      | ⟨0, _⟩ => by show (1 : Nat) = 1 + 0; rfl
      | ⟨1, _⟩ => by show e.val = 0 + e.val; omega)

/-- A length-E array laid out as a column reads its entry e at (e, 0). -/
theorem toCol_apply {α : Type} (y : S1000000.Idx → α) (e : Fin 1000000) :
    broadcastInDim S1000000x1 ![0] bcast_S1000000_S1000000x1_0 y (ix2 e 0) = y (ix1 e) :=
  broadcastInDim_apply _ bcast_S1000000_S1000000x1_0 y (ix2 e (0 : Fin 1)) (ix1 e) (fun a => match a with
    | ⟨0, _⟩ => by show e.val = if (1000000 : Nat) = 1 then 0 else e.val; rw [if_neg (by decide)])

theorem col2_apply (c : IVec S1000000 32) (e : Fin 1000000) : col2 (F := Ideal) c (ix2 e 0) = c (ix1 e) :=
  toCol_apply _ e

/-- The index column of a gather holds the wrapped word. -/
theorem nidx2_apply (a : IVec S1000000 32) (e : Fin 1000000) : nidx2 (F := Ideal) a (ix2 e 0) = wrap (a (ix1 e)) :=
  toCol_apply _ e

/-! ## Gathers at the wrapped words -/

/-- A per-node array gathered at the wrapped words reads the node the word names. -/
theorem gatherVec_apply (d : FVec Ideal S50000 .f32) (a : IVec S1000000 32) (e : Fin 1000000) :
    Host.gather gather_S50000_S1000000x1_S1000000_n_0_n_n_0_1_1 d (nidx2 (F := Ideal) a) (ix1 e) = d (ix1 (node (a (ix1 e)))) := by
  rw [Cert.GatherRows.host_gather_vec_apply (N := 50000) (E := 1000000) (by decide) gather_S50000_S1000000x1_S1000000_n_0_n_n_0_1_1
    rfl rfl rfl rfl rfl rfl rfl d (nidx2 (F := Ideal) a) e, nidx2_apply]
  rfl

/-- The feature rows gathered at the wrapped words read the row of the node the word names. -/
theorem gatherRows_apply (x : FVec Ideal S50000x64 .f32) (a : IVec S1000000 32) (e : Fin 1000000) (j : Fin 64) :
    Host.gather gather_S50000x64_S1000000x1_S1000000x64_1_0_n_n_0_1_164 x (nidx2 (F := Ideal) a) (ix2 e j) = x (ix2 (node (a (ix1 e))) j) := by
  rw [Cert.GatherRows.host_gather_rows_apply (N := 50000) (E := 1000000) (C := 64) (by decide) gather_S50000x64_S1000000x1_S1000000x64_1_0_n_n_0_1_164
    rfl rfl rfl rfl rfl rfl rfl x (nidx2 (F := Ideal) a) e j, nidx2_apply]
  rfl

theorem xrow_apply (x : FVec Ideal S50000x64 .f32) (x1 : IVec S2x1000000 32) (e : Fin 1000000) (j : Fin 64) :
    xrow (F := Ideal) x (row (F := Ideal) x1) (ix2 e j) = x (ix2 (src x1 e) j) := by
  unfold xrow src
  rw [gatherRows_apply, row_apply]

theorem xcol_apply (x : FVec Ideal S50000x64 .f32) (x1 : IVec S2x1000000 32) (e : Fin 1000000) (j : Fin 64) :
    xcol (F := Ideal) x (col (F := Ideal) x1) (ix2 e j) = x (ix2 (dst x1 e) j) := by
  unfold xcol dst
  rw [gatherRows_apply, col_apply]

/-- The normalisation weight of edge e. -/
theorem norm_apply (dinv : FVec Ideal S50000 .f32) (x1 : IVec S2x1000000 32) (g : FVec Ideal S1000000 .f32) (e : Fin 1000000) :
    norm (F := Ideal) dinv (row (F := Ideal) x1) (col (F := Ideal) x1) g (ix1 e) = nrm x1 g dinv e := by
  unfold KV.norm nrm src dst
  rw [mulf_apply, mulf_apply, gatherVec_apply, gatherVec_apply, row_apply, col_apply]

/-! ## Columns, rows, constants -/

theorem asCol_apply (a : FVec Ideal S1000000 .f32) (e : Fin 1000000) : asCol (F := Ideal) a (ix2 e 0) = a (ix1 e) := by
  unfold asCol
  refine shapeCast_apply _ shapeCasts_S1000000_S1000000x1 (ix2 e (0 : Fin 1)) (ix1 e) ?_
  rewrite [Shape.rowMajor_val_two, Shape.rowMajor_val_one]; show e.val = e.val * 1 + 0; omega

theorem asRow_apply (b : FVec Ideal S64 .f32) (k : Fin 64) : asRow (F := Ideal) b (ix2 0 k) = b (ix1 k) := by
  unfold asRow
  refine shapeCast_apply _ shapeCasts_S64_S1x64 (ix2 (0 : Fin 1) k) (ix1 k) ?_
  rewrite [Shape.rowMajor_val_two, Shape.rowMajor_val_one]; show k.val = 0 * 64 + k.val; omega

/-- The hetero gate at edge e is 1 − g e. -/
theorem ghet_apply (g : FVec Ideal S1000000 .f32) (e : Fin 1000000) : ghet (F := Ideal) g (ix1 e) = (1 : EReal) - g (ix1 e) := by
  unfold ghet
  rw [subf_apply]
  show Ideal.ofBits .f32 0x3F800000#32 - g (ix1 e) = _
  rw [Ideal.ofBits_one_f32]

/-- A per-node array spread along the channels reads its node's entry. -/
theorem spread_apply (y : FVec Ideal S50000 .f32) (v : Fin 50000) (k : Fin 64) :
    broadcastInDim S50000x64 ![0, 1] bcast_S50000x1_S50000x64_0_1 (broadcastInDim S50000x1 ![0] bcast_S50000_S50000x1_0 y) (ix2 v k) = y (ix1 v) := by
  refine (broadcastInDim_apply _ bcast_S50000x1_S50000x64_0_1 _ (ix2 v k) (ix2 v (0 : Fin 1)) (fun a => match a with
    | ⟨0, _⟩ => by show v.val = if (50000 : Nat) = 1 then 0 else v.val; rw [if_neg (by decide)]
    | ⟨1, _⟩ => by show 0 = if (1 : Nat) = 1 then 0 else k.val; rw [if_pos rfl])).trans ?_
  exact broadcastInDim_apply _ bcast_S50000_S50000x1_0 y (ix2 v (0 : Fin 1)) (ix1 v) (fun a => match a with
    | ⟨0, _⟩ => by show v.val = if (50000 : Nat) = 1 then 0 else v.val; rw [if_neg (by decide)])

/-- A bias spread along the nodes reads its channel's entry. -/
theorem bias_apply (b : FVec Ideal S64 .f32) (v : Fin 50000) (k : Fin 64) :
    broadcastInDim S50000x64 ![0, 1] bcast_S1x64_S50000x64_0_1 (broadcastInDim S1x64 ![1] bcast_S64_S1x64_1 b) (ix2 v k) = b (ix1 k) := by
  refine (broadcastInDim_apply _ bcast_S1x64_S50000x64_0_1 _ (ix2 v k) (ix2 (0 : Fin 1) k) (fun a => match a with
    | ⟨0, _⟩ => by show 0 = if (1 : Nat) = 1 then 0 else v.val; rw [if_pos rfl]
    | ⟨1, _⟩ => by show k.val = if (64 : Nat) = 1 then 0 else k.val; rw [if_neg (by decide)])).trans ?_
  exact broadcastInDim_apply _ bcast_S64_S1x64_1 b (ix2 (0 : Fin 1) k) (ix1 k) (fun a => match a with
    | ⟨0, _⟩ => by show k.val = if (64 : Nat) = 1 then 0 else k.val; rw [if_neg (by decide)])

/-! ## The degree -/

/-- The degree at node v: the gates of the edges added at v, plus one. -/
theorem deg_apply (x1 : IVec S2x1000000 32) (g : FVec Ideal S1000000 .f32) (v : Fin 50000) :
    deg (F := Ideal) (col (F := Ideal) x1) g (ix1 v) = degK x1 g v := by
  unfold deg degK into
  rw [addf_apply, Cert.ScatterRows.host_scatterAdd_vec_apply (N := 50000) (E := 1000000) scatter_S50000_S1000000x1_S1000000_n_0_0_1
    rfl rfl rfl rfl _ (col2 (F := Ideal) (col (F := Ideal) x1)) g v]
  simp only [col2_apply, col_apply]
  show (Ideal.ofBits .f32 0x00000000#32 + _) + Ideal.ofBits .f32 0x3F800000#32 = _
  rw [Ideal.ofBits_zero_f32, Ideal.ofBits_one_f32]

/-! ## The message array and the layer -/

/-- The message of the arrays the edge kernel is given, in the layer's own terms. -/
theorem msg_eq (x : FVec Ideal S50000x64 .f32) (x1 : IVec S2x1000000 32) (g : FVec Ideal S1000000 .f32) (dinv : FVec Ideal S50000 .f32)
    (W Wh : FVec Ideal S64x64 .f32) (bh : FVec Ideal S64 .f32) (e : Fin 1000000) (k : Fin 64) :
    msgAt (xrow (F := Ideal) x (row (F := Ideal) x1)) (xcol (F := Ideal) x (col (F := Ideal) x1))
        (asCol (F := Ideal) (norm (F := Ideal) dinv (row (F := Ideal) x1) (col (F := Ideal) x1) g)) (asCol (F := Ideal) (ghet (F := Ideal) g)) W Wh (asRow (F := Ideal) bh) e k
      = nrm x1 g dinv e * xw x W (src x1 e) k + (1 - g (ix1 e)) * het x Wh bh (src x1 e) (dst x1 e) k := by
  unfold msgAt xw het
  simp only [asCol_apply, norm_apply, ghet_apply, asRow_apply, xrow_apply, xcol_apply]

/-- THE LAYER READ AT (v, k), given the message array. -/
theorem post_apply (x : FVec Ideal S50000x64 .f32) (x1 : IVec S2x1000000 32) (g : FVec Ideal S1000000 .f32) (dinv : FVec Ideal S50000 .f32)
    (W Wh : FVec Ideal S64x64 .f32) (b bh : FVec Ideal S64 .f32) (M : FVec Ideal S1000000x64 .f32)
    (hM : ∀ (e : Fin 1000000) (k : Fin 64), M (ix2 e k) = msgAt (xrow (F := Ideal) x (row (F := Ideal) x1)) (xcol (F := Ideal) x (col (F := Ideal) x1))
        (asCol (F := Ideal) (norm (F := Ideal) dinv (row (F := Ideal) x1) (col (F := Ideal) x1) g)) (asCol (F := Ideal) (ghet (F := Ideal) g)) W Wh (asRow (F := Ideal) bh) e k)
    (v : Fin 50000) (k : Fin 64) :
    post (F := Ideal) x (col (F := Ideal) x1) dinv W b M (ix2 v k) = layerK x x1 g dinv W Wh b bh v k := by
  unfold KV.post layerK into xw
  rw [addf_apply, addf_apply, mulf_apply, spread_apply, bias_apply, mulf_apply,
    Cert.ScatterRows.host_scatterAdd_rows_apply (N := 50000) (E := 1000000) (C := 64) scatter_S50000x64_S1000000x1_S1000000x64_1_0_0_1
      rfl rfl rfl rfl _ (col2 (F := Ideal) (col (F := Ideal) x1)) M v k,
    show Host.dotGeneral dot_S50000x64_S64x64_S50000x64_1_0_0_1_n_n (some .fp32) x W (ix2 v k) = ∑ j : Fin 64, x (ix2 v j) * W (ix2 j k) from
      Cert.PlainDot.dotGeneral_apply dot_S50000x64_S64x64_S50000x64_1_0_0_1_n_n rfl rfl rfl rfl rfl rfl _ _ x W v k]
  simp only [col2_apply, col_apply, hM, msg_eq]
  show ((Ideal.ofBits .f32 0x00000000#32 + _) + _) + _ = _
  rw [Ideal.ofBits_zero_f32]
  rfl

end Cert.KernelIdeal.KRead

end
-- ==== Proof.RefLayerRead.lean ====
/-
  The reference layer read at a node and an output channel, over the extended reals.

  The reference appends one self loop per node to the 1000000 edges, so its two scatter sums of the normalised
  convolution run over 1050000 rows: rows 0 … 999999 are the edges, row 1000000 + j is the self loop of node j.
  A scatter's result at node v is the sum over the rows whose target word, read signed, is v
  (the scatter read at an index). Split at row 1000000:
    * on an edge row the concatenated arrays read their first piece — the edge's own source word, target word and
      gate — so that part is the sum over the edges into v;
    * on a self-loop row they read their second piece — the word j and the weight 1 — and the word j, read signed,
      is j itself (j < 50000 < 2^31), so exactly one self loop lands on v, that of v.
  A gather reads its operand at the node the index word names (negative words wrapped, then clamped): for an edge
  row the edge's source or target node, for the self loop of j the node j. The matrix products are sums over the 64
  input channels. The degree (deg_apply) and the layer (layer_apply) come out as the formulas degR and layerR.
-/
import proofs.«152795_j88356067213584_1_alg».proof.Proof.RefLayerDefs
import proofs.«152795_j88356067213584_1_alg».proof.Proof.Formula
import proofs.«152795_j88356067213584_1_alg».proof.Proof.LibScatterRows
import proofs.«152795_j88356067213584_1_alg».proof.Proof.LibGatherRows
import proofs.«152795_j88356067213584_1_alg».proof.Proof.LibPlainDot
import Idealize.ShloMosaic.Lib.IdealHost
import Idealize.ShloMosaic.Lib.Pipeline.Value
import Idealize.ShloMosaic.Lib.ValueIdx

noncomputable section

open scoped BigOperators

namespace Cert.ReferenceIdeal.RefLayer

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The extended edge list: edges first, then one self loop per node -/

/-- Edge e as a row of the extended list. -/
def eRow (e : Fin 1000000) : Fin 1050000 := ⟨e.val, by have := e.isLt; omega⟩
/-- The self loop of node j as a row of the extended list. -/
def sRow (j : Fin 50000) : Fin 1050000 := ⟨1000000 + j.val, by have := j.isLt; omega⟩

/-- A sum over the extended list is the sum over the edges plus the sum over the self loops. -/
theorem sum_ext {M : Type} [AddCommMonoid M] (f : Fin 1050000 → M) :
    ∑ r : Fin 1050000, f r = (∑ e : Fin 1000000, f (eRow e)) + ∑ j : Fin 50000, f (sRow j) :=
  Fin.sum_univ_add (a := 1000000) (b := 50000) f

/-- Among the self loops exactly that of v carries the word v. -/
theorem sum_loop {M : Type} [AddCommMonoid M] (v : Fin 50000) (f : Fin 50000 → M) :
    (∑ j : Fin 50000, if (j.val : Int) = (v.val : Int) then f j else 0) = f v := by
  rw [Finset.sum_eq_single v]
  · rw [if_pos rfl]
  · intro b _ hb
    rw [if_neg]
    intro h
    exact hb (Fin.ext (by exact_mod_cast h))
  · intro h; exact absurd (Finset.mem_univ v) h

/-- The word j of a node number j, read signed, is j. -/
theorem iota_toInt (j : Fin 50000) : (BitVec.ofNat 32 j.val).toInt = (j.val : Int) := by
  have hj := j.isLt
  have hn : (BitVec.ofNat 32 j.val).toNat = j.val := by rw [BitVec.toNat_ofNat]; omega
  rw [BitVec.toInt_eq_toNat_of_lt (by rw [hn]; omega), hn]

/-- A node's own number names that node. -/
theorem node_iota (j : Fin 50000) : Cert.MsgPass.node (BitVec.ofNat 32 j.val) = j := by
  have hj := j.isLt
  have hs : IntOp.cmpi .slt (BitVec.ofNat 32 j.val) 0#32 = 0#1 := by
    show BitVec.ofBool ((BitVec.ofNat 32 j.val).slt 0#32) = 0#1
    have : (BitVec.ofNat 32 j.val).slt 0#32 = false := by
      rw [BitVec.slt, iota_toInt]
      simp
    rw [this]; rfl
  unfold Cert.MsgPass.node Cert.MsgPass.wrap
  rw [hs, select_zero]
  exact Cert.GatherRows.clampRow_of_toInt 50000 _ _ j (iota_toInt j)

/-! ## Layout operations at literal coordinates -/

section Layout
variable {α : Type}

/-- A vector made a column, [n] → [n, 1], reads the vector. -/
theorem col_apply {n : Nat} (hn : n ≠ 1) (h : (⟨1, ![n]⟩ : Shape).BroadcastsInDim ⟨2, ![n, 1]⟩ ![0])
    (y : (⟨1, ![n]⟩ : Shape).Idx → α) (e : Fin n) :
    broadcastInDim ⟨2, ![n, 1]⟩ ![0] h y (ix2 e 0) = y (ix1 e) :=
  broadcastInDim_apply _ h y (ix2 e 0) (ix1 e) (fun a => match a with
    | ⟨0, _⟩ => by show e.val = if n = 1 then 0 else e.val; rw [if_neg hn])

/-- A column repeated along the channels, [n, 1] → [n, c], reads the column. -/
theorem rep_apply {n c : Nat} (hn : n ≠ 1) (h : (⟨2, ![n, 1]⟩ : Shape).BroadcastsInDim ⟨2, ![n, c]⟩ ![0, 1])
    (y : (⟨2, ![n, 1]⟩ : Shape).Idx → α) (e : Fin n) (k : Fin c) :
    broadcastInDim ⟨2, ![n, c]⟩ ![0, 1] h y (ix2 e k) = y (ix2 e 0) :=
  broadcastInDim_apply _ h y (ix2 e k) (ix2 e 0) (fun a => match a with
    | ⟨0, _⟩ => by show e.val = if n = 1 then 0 else e.val; rw [if_neg hn]
    | ⟨1, _⟩ => by show (0 : Nat) = if (1 : Nat) = 1 then 0 else k.val; rw [if_pos rfl])

/-- A vector made a row, [c] → [1, c], reads the vector. -/
theorem row_apply {c : Nat} (hc : c ≠ 1) (h : (⟨1, ![c]⟩ : Shape).BroadcastsInDim ⟨2, ![1, c]⟩ ![1])
    (y : (⟨1, ![c]⟩ : Shape).Idx → α) (k : Fin c) :
    broadcastInDim ⟨2, ![1, c]⟩ ![1] h y (ix2 0 k) = y (ix1 k) :=
  broadcastInDim_apply _ h y (ix2 0 k) (ix1 k) (fun a => match a with
    | ⟨0, _⟩ => by show k.val = if c = 1 then 0 else k.val; rw [if_neg hc])

/-- A row repeated along the rows, [1, c] → [n, c], reads the row. -/
theorem tile_apply {n c : Nat} (hc : c ≠ 1) (h : (⟨2, ![1, c]⟩ : Shape).BroadcastsInDim ⟨2, ![n, c]⟩ ![0, 1])
    (y : (⟨2, ![1, c]⟩ : Shape).Idx → α) (v : Fin n) (k : Fin c) :
    broadcastInDim ⟨2, ![n, c]⟩ ![0, 1] h y (ix2 v k) = y (ix2 0 k) :=
  broadcastInDim_apply _ h y (ix2 v k) (ix2 0 k) (fun a => match a with
    | ⟨0, _⟩ => by show (0 : Nat) = if (1 : Nat) = 1 then 0 else v.val; rw [if_pos rfl]
    | ⟨1, _⟩ => by show k.val = if c = 1 then 0 else k.val; rw [if_neg hc])

end Layout

/-! ## The edge list's words -/

section Words
variable (x1 : (⟨S2x1000000, .i32⟩ : BufTy).Contents (Elt Ideal))

/-- The source word of edge e. -/
theorem srcw_apply (e : Fin 1000000) : val_main_v1 (F := Ideal) x1 (ix1 e) = x1 (ix2 0 e) := by
  rw [val_main_v1_apply, val_main_v0_apply]
  refine congrArg x1 (funext fun a => Fin.ext ?_)
  match a with
  | ⟨0, _⟩ => rfl
  | ⟨1, _⟩ => exact Nat.mod_eq_of_lt e.isLt

/-- The target word of edge e. -/
theorem dstw_apply (e : Fin 1000000) : val_main_v3 (F := Ideal) x1 (ix1 e) = x1 (ix2 1 e) := by
  rw [val_main_v3_apply, val_main_v2_apply]
  refine congrArg x1 (funext fun a => Fin.ext ?_)
  match a with
  | ⟨0, _⟩ => rfl
  | ⟨1, _⟩ => exact Nat.mod_eq_of_lt e.isLt

/-- The extended source words: an edge row holds the edge's source word. -/
theorem srcA_edge (e : Fin 1000000) : val_main_v15 (F := Ideal) x1 (ix1 (eRow e)) = x1 (ix2 0 e) := by
  unfold val_main_v15
  refine (concatenate_pair_apply_left 0 _ _ concatenates_S1000000_S50000_S1050000_d0 (ix1 (eRow e)) rfl (ix1 e)
    (fun b => ?_)).trans (srcw_apply x1 e)
  match b with
  | ⟨0, _⟩ => rfl

/-- The extended source words: the self loop of j holds the word j. -/
theorem srcA_loop (j : Fin 50000) : val_main_v15 (F := Ideal) x1 (ix1 (sRow j)) = BitVec.ofNat 32 j.val := by
  unfold val_main_v15
  refine (concatenate_pair_apply_right 0 _ _ concatenates_S1000000_S50000_S1050000_d0 (ix1 (sRow j)) rfl rfl (ix1 j)
    (fun b hb => absurd (Subsingleton.elim _ _) hb) ?_).trans rfl
  show j.val + 1000000 = 1000000 + j.val
  omega

/-- The extended target words: an edge row holds the edge's target word. -/
theorem dstA_edge (e : Fin 1000000) : val_main_v16 (F := Ideal) x1 (ix1 (eRow e)) = x1 (ix2 1 e) := by
  unfold val_main_v16
  refine (concatenate_pair_apply_left 0 _ _ concatenates_S1000000_S50000_S1050000_d0 (ix1 (eRow e)) rfl (ix1 e)
    (fun b => ?_)).trans (dstw_apply x1 e)
  match b with
  | ⟨0, _⟩ => rfl

/-- The extended target words: the self loop of j holds the word j. -/
theorem dstA_loop (j : Fin 50000) : val_main_v16 (F := Ideal) x1 (ix1 (sRow j)) = BitVec.ofNat 32 j.val := by
  unfold val_main_v16
  refine (concatenate_pair_apply_right 0 _ _ concatenates_S1000000_S50000_S1050000_d0 (ix1 (sRow j)) rfl rfl (ix1 j)
    (fun b hb => absurd (Subsingleton.elim _ _) hb) ?_).trans rfl
  show j.val + 1000000 = 1000000 + j.val
  omega

end Words

/-! ## The gated in-degree -/

section Degree
variable (x1 : (⟨S2x1000000, .i32⟩ : BufTy).Contents (Elt Ideal)) (g : (⟨S1000000, .f32⟩ : BufTy).Contents (Elt Ideal))

/-- The extended weights: an edge row holds the edge's gate. -/
theorem wA_edge (e : Fin 1000000) : wA (F := Ideal) g (ix1 (eRow e)) = g (ix1 e) := by
  unfold wA
  refine concatenate_pair_apply_left 0 _ _ concatenates_S1000000_S50000_S1050000_d0 (ix1 (eRow e)) rfl (ix1 e) (fun b => ?_)
  match b with
  | ⟨0, _⟩ => rfl

/-- The extended weights: a self loop weighs one. -/
theorem wA_loop (j : Fin 50000) : wA (F := Ideal) g (ix1 (sRow j)) = 1 := by
  unfold wA
  refine (concatenate_pair_apply_right 0 _ _ concatenates_S1000000_S50000_S1050000_d0 (ix1 (sRow j)) rfl rfl (ix1 j)
    (fun b hb => absurd (Subsingleton.elim _ _) hb) ?_).trans ?_
  · show j.val + 1000000 = 1000000 + j.val
    omega
  · unfold val_main_v17 val_main_cst_3
    rw [broadcastInDim_scalar_apply]
    exact Ideal.ofBits_one_f32

/-- THE DEGREE AT A NODE: the gates of the edges into it, plus one for its self loop. -/
theorem deg_apply (v : Fin 50000) : deg (F := Ideal) x1 g (ix1 v) = Cert.MsgPass.degR x1 g v := by
  unfold deg Cert.MsgPass.degR Cert.MsgPass.into
  rw [Cert.ScatterRows.host_scatterAdd_vec_apply scatter_S50000_S1050000x1_S1050000_n_0_0_1 rfl rfl rfl rfl,
    Finset.sum_filter, sum_ext, Finset.sum_filter]
  have h0 : val_main_v19 (F := Ideal) (ix1 v) = 0 := by
    unfold val_main_v19 val_main_cst_4
    rw [broadcastInDim_scalar_apply]
    exact Ideal.ofBits_zero_f32
  have hc : ∀ r : Fin 1050000, val_main_v20 (F := Ideal) x1 (ix2 r 0) = val_main_v16 (F := Ideal) x1 (ix1 r) := fun r => by
    unfold val_main_v20
    exact col_apply (by decide) _ _ r
  rw [h0]
  refine congrArg (0 + ·) (congrArg₂ (· + ·) ?_ ?_)
  · refine Finset.sum_congr rfl fun e _ => ?_
    rw [hc, dstA_edge, wA_edge]
  · simp only [hc, dstA_loop, wA_loop, iota_toInt]
    exact sum_loop v (fun _ => (1 : EReal))

end Degree

/-! ## Index columns and gathers -/

section Gathers
variable (x1 : (⟨S2x1000000, .i32⟩ : BufTy).Contents (Elt Ideal))

/-- The scatter column of the extended list holds the extended target words. -/
theorem dstcolA_apply (r : Fin 1050000) : val_main_v55 (F := Ideal) x1 (ix2 r 0) = val_main_v16 (F := Ideal) x1 (ix1 r) := by
  unfold val_main_v55
  exact col_apply (by decide) _ _ r

/-- The first gather column of the extended list holds the extended source words, wrapped. -/
theorem srcwrapA_apply (r : Fin 1050000) :
    val_main_v32 (F := Ideal) x1 (ix2 r 0) = Cert.MsgPass.wrap (val_main_v15 (F := Ideal) x1 (ix1 r)) := by
  unfold val_main_v32
  exact (col_apply (by decide) _ _ r).trans rfl

/-- The second gather column of the extended list holds the extended target words, wrapped. -/
theorem dstwrapA_apply (r : Fin 1050000) :
    val_main_v40 (F := Ideal) x1 (ix2 r 0) = Cert.MsgPass.wrap (val_main_v16 (F := Ideal) x1 (ix1 r)) := by
  unfold val_main_v40
  exact (col_apply (by decide) _ _ r).trans rfl

/-- The row gather column of the extended list holds the extended source words, wrapped. -/
theorem srcwrapA'_apply (r : Fin 1050000) :
    val_main_v50 (F := Ideal) x1 (ix2 r 0) = Cert.MsgPass.wrap (val_main_v15 (F := Ideal) x1 (ix1 r)) := by
  unfold val_main_v50
  exact (col_apply (by decide) _ _ r).trans rfl

/-- The target gather column of the edges holds the target words, wrapped. -/
theorem dstwrap_apply (e : Fin 1000000) : val_main_v65 (F := Ideal) x1 (ix2 e 0) = Cert.MsgPass.wrap (x1 (ix2 1 e)) := by
  unfold val_main_v65
  refine (col_apply (by decide) _ _ e).trans ?_
  show Cert.MsgPass.wrap (val_main_v3 (F := Ideal) x1 (ix1 e)) = _
  rw [dstw_apply]

/-- The source gather column of the edges holds the source words, wrapped. -/
theorem srcwrap_apply (e : Fin 1000000) : val_main_v72 (F := Ideal) x1 (ix2 e 0) = Cert.MsgPass.wrap (x1 (ix2 0 e)) := by
  unfold val_main_v72
  refine (col_apply (by decide) _ _ e).trans ?_
  show Cert.MsgPass.wrap (val_main_v1 (F := Ideal) x1 (ix1 e)) = _
  rw [srcw_apply]

/-- The scatter column of the edges holds the target words. -/
theorem dstcol_apply (e : Fin 1000000) : val_main_v84 (F := Ideal) x1 (ix2 e 0) = x1 (ix2 1 e) := by
  unfold val_main_v84
  exact (col_apply (by decide) _ _ e).trans (dstw_apply x1 e)

/-- A node array gathered at the extended sources reads the node the source word names. -/
theorem gather_srcA (D : (⟨S50000, .f32⟩ : BufTy).Contents (Elt Ideal)) (r : Fin 1050000) :
    Host.gather gather_S50000_S1050000x1_S1050000_n_0_n_n_0_1_1 D (val_main_v32 (F := Ideal) x1) (ix1 r)
      = D (ix1 (Cert.MsgPass.node (val_main_v15 (F := Ideal) x1 (ix1 r)))) := by
  rw [Cert.GatherRows.host_gather_vec_apply (by decide) gather_S50000_S1050000x1_S1050000_n_0_n_n_0_1_1 rfl rfl rfl rfl rfl rfl rfl,
    srcwrapA_apply]
  rfl

/-- A node array gathered at the extended targets reads the node the target word names. -/
theorem gather_dstA (D : (⟨S50000, .f32⟩ : BufTy).Contents (Elt Ideal)) (r : Fin 1050000) :
    Host.gather gather_S50000_S1050000x1_S1050000_n_0_n_n_0_1_1 D (val_main_v40 (F := Ideal) x1) (ix1 r)
      = D (ix1 (Cert.MsgPass.node (val_main_v16 (F := Ideal) x1 (ix1 r)))) := by
  rw [Cert.GatherRows.host_gather_vec_apply (by decide) gather_S50000_S1050000x1_S1050000_n_0_n_n_0_1_1 rfl rfl rfl rfl rfl rfl rfl,
    dstwrapA_apply]
  rfl

end Gathers

/-! ## The normalisation weights -/

section Norm
variable (x1 : (⟨S2x1000000, .i32⟩ : BufTy).Contents (Elt Ideal)) (g : (⟨S1000000, .f32⟩ : BufTy).Contents (Elt Ideal))

/-- On an edge row: dinv at the source, times the gate, times dinv at the target. -/
theorem nrmA_edge (e : Fin 1000000) :
    nrmA (F := Ideal) x1 g (ix1 (eRow e)) = Cert.MsgPass.nrm x1 g (dinvOf (deg (F := Ideal) x1 g)) e := by
  unfold nrmA Cert.MsgPass.nrm Cert.MsgPass.src Cert.MsgPass.dst
  generalize dinvOf (deg (F := Ideal) x1 g) = D
  rw [mulf_apply, mulf_apply, gather_srcA, gather_dstA, srcA_edge, dstA_edge, wA_edge]

/-- On the self loop of j: dinv j · 1 · dinv j. -/
theorem nrmA_loop (j : Fin 50000) :
    nrmA (F := Ideal) x1 g (ix1 (sRow j))
      = dinvOf (deg (F := Ideal) x1 g) (ix1 j) * 1 * dinvOf (deg (F := Ideal) x1 g) (ix1 j) := by
  unfold nrmA
  generalize dinvOf (deg (F := Ideal) x1 g) = D
  rw [mulf_apply, mulf_apply, gather_srcA, gather_dstA, srcA_loop, dstA_loop, wA_loop, node_iota]

end Norm

/-! ## The normalised convolution -/

section Homo
variable (x : (⟨S50000x64, .f32⟩ : BufTy).Contents (Elt Ideal)) (x1 : (⟨S2x1000000, .i32⟩ : BufTy).Contents (Elt Ideal)) (g : (⟨S1000000, .f32⟩ : BufTy).Contents (Elt Ideal))
  (W : (⟨S64x64, .f32⟩ : BufTy).Contents (Elt Ideal)) (b : (⟨S64, .f32⟩ : BufTy).Contents (Elt Ideal))

/-- Row p of x · W at channel k. -/
theorem xw_apply (p : Fin 50000) (k : Fin 64) : val_main_v43 (F := Ideal) x W (ix2 p k) = Cert.MsgPass.xw x W p k := by
  unfold val_main_v43 Cert.MsgPass.xw
  exact Cert.PlainDot.dotGeneral_apply dot_S50000x64_S64x64_S50000x64_1_0_0_1_n_n rfl rfl rfl rfl rfl rfl none .single x W p k

/-- The message of an extended row on channel k: its normalisation weight times row (its source node) of x · W. -/
theorem msgA_apply (r : Fin 1050000) (k : Fin 64) :
    mulf (F := Ideal) (s := S1050000x64) (φ := .f32) (broadcastInDim S1050000x64 ![0, 1] bcast_S1050000x1_S1050000x64_0_1
          (broadcastInDim S1050000x1 ![0] bcast_S1050000_S1050000x1_0 (nrmA (F := Ideal) x1 g)))
        (Host.gather gather_S50000x64_S1050000x1_S1050000x64_1_0_n_n_0_1_164 (val_main_v43 (F := Ideal) x W) (val_main_v50 (F := Ideal) x1))
        (ix2 r k)
      = nrmA (F := Ideal) x1 g (ix1 r) * Cert.MsgPass.xw x W (Cert.MsgPass.node (val_main_v15 (F := Ideal) x1 (ix1 r))) k := by
  rw [mulf_apply]
  refine congrArg₂ (· * ·) ?_ ?_
  · exact (rep_apply (by decide) _ _ r k).trans (col_apply (by decide) _ _ r)
  · rw [Cert.GatherRows.host_gather_rows_apply (by decide) gather_S50000x64_S1050000x1_S1050000x64_1_0_n_n_0_1_164 rfl rfl rfl rfl rfl rfl rfl,
      srcwrapA'_apply, xw_apply]
    rfl

/-- THE NORMALISED CONVOLUTION AT (v, k): the edges into v, the self loop of v, and the bias. -/
theorem homo_apply (v : Fin 50000) (k : Fin 64) :
    homo (F := Ideal) x x1 g W b (ix2 v k) =
      (0 + ((∑ e ∈ Cert.MsgPass.into x1 v,
              Cert.MsgPass.nrm x1 g (dinvOf (deg (F := Ideal) x1 g)) e * Cert.MsgPass.xw x W (Cert.MsgPass.src x1 e) k)
          + (dinvOf (deg (F := Ideal) x1 g) (ix1 v) * 1 * dinvOf (deg (F := Ideal) x1 g) (ix1 v)) * Cert.MsgPass.xw x W v k))
        + b (ix1 k) := by
  unfold homo Cert.MsgPass.into
  rw [addf_apply, Cert.ScatterRows.host_scatterAdd_rows_apply scatter_S50000x64_S1050000x1_S1050000x64_1_0_0_1 rfl rfl rfl rfl,
    Finset.sum_filter, sum_ext, Finset.sum_filter]
  have hz : val_main_v54 (F := Ideal) (ix2 v k) = 0 := by
    unfold val_main_v54 val_main_cst_13
    rw [broadcastInDim_scalar_apply]
    exact Ideal.ofBits_zero_f32
  have hb : val_main_v58 (F := Ideal) b (ix2 v k) = b (ix1 k) := by
    unfold val_main_v58 val_main_v57
    exact (tile_apply (by decide) _ _ v k).trans (row_apply (by decide) _ _ k)
  rw [hz, hb]
  refine congrArg₂ (· + ·) (congrArg (0 + ·) (congrArg₂ (· + ·) ?_ ?_)) rfl
  · refine Finset.sum_congr rfl fun e _ => ?_
    rw [dstcolA_apply, dstA_edge, msgA_apply, nrmA_edge, srcA_edge]
    rfl
  · refine (Finset.sum_congr rfl fun j _ => ?_).trans
      (sum_loop v (fun j => (dinvOf (deg (F := Ideal) x1 g) (ix1 j) * 1 * dinvOf (deg (F := Ideal) x1 g) (ix1 j))
        * Cert.MsgPass.xw x W j k))
    rw [dstcolA_apply, dstA_loop, iota_toInt, msgA_apply, nrmA_loop, srcA_loop, node_iota]

end Homo

/-! ## The gated difference convolution -/

section Hetero
variable (x : (⟨S50000x64, .f32⟩ : BufTy).Contents (Elt Ideal)) (x1 : (⟨S2x1000000, .i32⟩ : BufTy).Contents (Elt Ideal)) (g : (⟨S1000000, .f32⟩ : BufTy).Contents (Elt Ideal))
  (Wh : (⟨S64x64, .f32⟩ : BufTy).Contents (Elt Ideal)) (bh : (⟨S64, .f32⟩ : BufTy).Contents (Elt Ideal))

/-- |x[target] − x[source]| of edge e at input channel j. -/
theorem absdiff_apply (e : Fin 1000000) (j : Fin 64) :
    val_main_v75 (F := Ideal) x x1 (ix2 e j)
      = max (x (ix2 (Cert.MsgPass.dst x1 e) j) - x (ix2 (Cert.MsgPass.src x1 e) j))
          (-(x (ix2 (Cert.MsgPass.dst x1 e) j) - x (ix2 (Cert.MsgPass.src x1 e) j))) := by
  have h66 : val_main_v66 (F := Ideal) x x1 (ix2 e j) = x (ix2 (Cert.MsgPass.dst x1 e) j) := by
    unfold val_main_v66
    rw [Cert.GatherRows.host_gather_rows_apply (by decide) gather_S50000x64_S1000000x1_S1000000x64_1_0_n_n_0_1_164 rfl rfl rfl rfl rfl rfl rfl,
      dstwrap_apply]
    rfl
  have h73 : val_main_v73 (F := Ideal) x x1 (ix2 e j) = x (ix2 (Cert.MsgPass.src x1 e) j) := by
    unfold val_main_v73
    rw [Cert.GatherRows.host_gather_rows_apply (by decide) gather_S50000x64_S1000000x1_S1000000x64_1_0_n_n_0_1_164 rfl rfl rfl rfl rfl rfl rfl,
      srcwrap_apply]
    rfl
  show max (val_main_v66 (F := Ideal) x x1 (ix2 e j) - val_main_v73 (F := Ideal) x x1 (ix2 e j))
      (-(val_main_v66 (F := Ideal) x x1 (ix2 e j) - val_main_v73 (F := Ideal) x x1 (ix2 e j))) = _
  rw [h66, h73]

/-- The linear map of the difference of edge e at channel k, bias included. -/
theorem hetmsg_apply (e : Fin 1000000) (k : Fin 64) :
    val_main_v80 (F := Ideal) x x1 Wh bh (ix2 e k)
      = Cert.MsgPass.het x Wh bh (Cert.MsgPass.dst x1 e) (Cert.MsgPass.src x1 e) k := by
  unfold val_main_v80 val_main_v77 val_main_v79 val_main_v78 Cert.MsgPass.het
  rw [addf_apply]
  refine congrArg₂ (· + ·) ?_ ?_
  · refine (Cert.PlainDot.dotGeneral_apply dot_S1000000x64_S64x64_S1000000x64_1_0_0_1_n_n rfl rfl rfl rfl rfl rfl none .single
      (val_main_v75 (F := Ideal) x x1) Wh e k).trans ?_
    refine Finset.sum_congr rfl fun j _ => ?_
    rw [absdiff_apply]
  · exact (tile_apply (by decide) _ _ e k).trans (row_apply (by decide) _ _ k)

/-- The complementary gate of edge e, on any channel. -/
theorem cogate_apply (e : Fin 1000000) (k : Fin 64) :
    broadcastInDim S1000000x64 ![0, 1] bcast_S1000000x1_S1000000x64_0_1
        (broadcastInDim S1000000x1 ![0] bcast_S1000000_S1000000x1_0 (subf (F := Ideal) (s := S1000000) (φ := .f32) (val_main_v12 (F := Ideal)) g)) (ix2 e k)
      = 1 - g (ix1 e) := by
  refine (rep_apply (by decide) _ _ e k).trans ((col_apply (by decide) _ _ e).trans ?_)
  have h1 : val_main_v12 (F := Ideal) (ix1 e) = 1 := by
    unfold val_main_v12 val_main_cst_2
    rw [broadcastInDim_scalar_apply]
    exact Ideal.ofBits_one_f32
  rw [subf_apply, h1]

/-- THE GATED DIFFERENCE CONVOLUTION AT (v, k): the edges into v. -/
theorem hetero_apply (v : Fin 50000) (k : Fin 64) :
    hetero (F := Ideal) x x1 g Wh bh (ix2 v k) =
      0 + ∑ e ∈ Cert.MsgPass.into x1 v,
        (1 - g (ix1 e)) * Cert.MsgPass.het x Wh bh (Cert.MsgPass.dst x1 e) (Cert.MsgPass.src x1 e) k := by
  unfold hetero Cert.MsgPass.into
  rw [Cert.ScatterRows.host_scatterAdd_rows_apply scatter_S50000x64_S1000000x1_S1000000x64_1_0_0_1 rfl rfl rfl rfl]
  have hz : val_main_v83 (F := Ideal) (ix2 v k) = 0 := by
    unfold val_main_v83 val_main_cst_18
    rw [broadcastInDim_scalar_apply]
    exact Ideal.ofBits_zero_f32
  rw [hz]
  refine congrArg (0 + ·) ?_
  simp only [dstcol_apply]
  refine Finset.sum_congr rfl fun e _ => ?_
  rw [mulf_apply, cogate_apply, hetmsg_apply]

end Hetero

/-! ## The layer -/

section Layer
variable (x : (⟨S50000x64, .f32⟩ : BufTy).Contents (Elt Ideal)) (x1 : (⟨S2x1000000, .i32⟩ : BufTy).Contents (Elt Ideal)) (g : (⟨S1000000, .f32⟩ : BufTy).Contents (Elt Ideal))
  (W : (⟨S64x64, .f32⟩ : BufTy).Contents (Elt Ideal)) (b : (⟨S64, .f32⟩ : BufTy).Contents (Elt Ideal)) (Wh : (⟨S64x64, .f32⟩ : BufTy).Contents (Elt Ideal)) (bh : (⟨S64, .f32⟩ : BufTy).Contents (Elt Ideal))

/-- THE REFERENCE LAYER AT (v, k) is the two-convolution formula, with dinv the inverse square root of the degree. -/
theorem layer_apply (v : Fin 50000) (k : Fin 64) :
    layer (F := Ideal) x x1 g W b Wh bh (ix2 v k)
      = Cert.MsgPass.layerR x x1 g (dinvOf (deg (F := Ideal) x1 g)) W Wh b bh v k := by
  unfold layer Cert.MsgPass.layerR
  rw [addf_apply, homo_apply, hetero_apply]

end Layer

end Cert.ReferenceIdeal.RefLayer

end
-- ==== Proof.Agree.lean ====
/-
  The kernel's layer and the reference's layer are one function of the arrays.

  Given the message array M of the layer's arrays (at edge e and channel k, the message of the gathered endpoint
  rows, the normalisation weight, the hetero gate, the two weight matrices and the hetero bias), the kernel
  program's sums over M, self loop and bias give at every node and channel what the reference's two convolutions
  give: both read, at (v, k), as Formula.lean's layerK and layerR, which agree; the two programs' degree arrays agree
  entry by entry, hence so do their inverse roots, the same operations applied to them.
-/
import proofs.«152795_j88356067213584_1_alg».proof.Proof.KLayer
import proofs.«152795_j88356067213584_1_alg».proof.Proof.RefLayerDefs
import proofs.«152795_j88356067213584_1_alg».proof.Proof.RefLayerRead
import proofs.«152795_j88356067213584_1_alg».proof.Proof.Formula

noncomputable section

namespace Cert.Agree

open Idealize.ShloMosaic Idealize.ShloMosaic.ValueIdx Cert.MsgPass

/-- The two programs spell the gate by the same operations. -/
theorem gate_eq (x2 : FVec Ideal Cert.KernelIdeal.S1000000 .f32) :
    Cert.KernelIdeal.KV.gate (F := Ideal) x2 = Cert.ReferenceIdeal.RefLayer.gate (F := Ideal) x2 := rfl

/-- … the inverse root of a degree array … -/
theorem dinvOf_eq (d : FVec Ideal Cert.KernelIdeal.S50000 .f32) :
    Cert.KernelIdeal.KV.dinvOf (F := Ideal) d = Cert.ReferenceIdeal.RefLayer.dinvOf (F := Ideal) d := rfl

/-- … and the rectifier. -/
theorem relu_eq (a : FVec Ideal Cert.KernelIdeal.S50000x64 .f32) :
    Cert.KernelIdeal.KV.relu (F := Ideal) a = Cert.ReferenceIdeal.RefLayer.relu (F := Ideal) a := rfl

/-- The degree arrays agree: the self loop's unit weight is added after the edge sum or among it. -/
theorem deg_eq (x1 : IVec Cert.KernelIdeal.S2x1000000 32) (g : FVec Ideal Cert.KernelIdeal.S1000000 .f32) :
    Cert.KernelIdeal.KV.deg (F := Ideal) (Cert.KernelIdeal.KV.col (F := Ideal) x1) g = Cert.ReferenceIdeal.RefLayer.deg (F := Ideal) x1 g := by
  funext i
  obtain ⟨v, rfl⟩ : ∃ v : Fin 50000, i = ix1 v := ⟨i 0, eq_ix1 i⟩
  rw [Cert.KernelIdeal.KRead.deg_apply, degK_eq_degR, ← Cert.ReferenceIdeal.RefLayer.deg_apply]

/-- ONE LAYER: the kernel program's result from the message array is the reference's layer. -/
theorem layer_eq (x : FVec Ideal Cert.KernelIdeal.S50000x64 .f32) (x1 : IVec Cert.KernelIdeal.S2x1000000 32)
    (g : FVec Ideal Cert.KernelIdeal.S1000000 .f32) (W Wh : FVec Ideal Cert.KernelIdeal.S64x64 .f32) (b bh : FVec Ideal Cert.KernelIdeal.S64 .f32)
    (M : FVec Ideal Cert.KernelIdeal.S1000000x64 .f32)
    (hM : ∀ (e : Fin 1000000) (k : Fin 64), M (ix2 e k) = msgAt (Cert.KernelIdeal.KV.xrow (F := Ideal) x (Cert.KernelIdeal.KV.row (F := Ideal) x1))
        (Cert.KernelIdeal.KV.xcol (F := Ideal) x (Cert.KernelIdeal.KV.col (F := Ideal) x1))
        (Cert.KernelIdeal.KV.asCol (F := Ideal) (Cert.KernelIdeal.KV.norm (F := Ideal)
          (Cert.KernelIdeal.KV.dinvOf (F := Ideal) (Cert.KernelIdeal.KV.deg (F := Ideal) (Cert.KernelIdeal.KV.col (F := Ideal) x1) g))
          (Cert.KernelIdeal.KV.row (F := Ideal) x1) (Cert.KernelIdeal.KV.col (F := Ideal) x1) g))
        (Cert.KernelIdeal.KV.asCol (F := Ideal) (Cert.KernelIdeal.KV.ghet (F := Ideal) g)) W Wh (Cert.KernelIdeal.KV.asRow (F := Ideal) bh) e k) :
    Cert.KernelIdeal.KV.post (F := Ideal) x (Cert.KernelIdeal.KV.col (F := Ideal) x1)
        (Cert.KernelIdeal.KV.dinvOf (F := Ideal) (Cert.KernelIdeal.KV.deg (F := Ideal) (Cert.KernelIdeal.KV.col (F := Ideal) x1) g)) W b M
      = Cert.ReferenceIdeal.RefLayer.layer (F := Ideal) x x1 g W b Wh bh := by
  funext i
  obtain ⟨v, k, rfl⟩ : ∃ (v : Fin 50000) (k : Fin 64), i = ix2 v k := ⟨i 0, i 1, eq_ix2 i⟩
  rw [Cert.KernelIdeal.KRead.post_apply x x1 g _ W Wh b bh M hM v k, layerK_eq_layerR, Cert.ReferenceIdeal.RefLayer.layer_apply,
    deg_eq, dinvOf_eq]

end Cert.Agree

end
-- ==== Proof.lean ====
/-
  The certificate: a two-layer curvature-gated graph convolution whose per-edge work is fused into one edge kernel,
  against the same network written as two library convolutions per layer.

  Both programs compute, per layer and at every node v and channel k, the sum over the edges added at v of
      dinv[src] · g · dinv[dst] · (x W)[src]  +  (1 − g) · (|x[src] − x[dst]| Wh + bh),
  the self loop dinv[v]² · (x W)[v], and the bias b. The kernel program gathers the endpoint rows, lets the edge
  kernel form each edge's whole message tile by tile, scatter-adds the messages and adds the self loop and the bias
  on the host; the reference appends the self loops to the edge list, runs the normalised convolution over the
  extended list and the gated difference convolution (with the difference taken the other way round) over the
  edges, and adds the two. Over the extended reals these are the same function of the arguments: sums may be
  regrouped freely, x · 1 = x, |a − b| = |b − a|, a matrix unit's product into a zero accumulator is the host's
  dot product, and a change of float format is the identity. No finiteness of the inputs is used.

  The three frames are the generated ones (the reference's is its generated run with the result dropped); the ideal
  pass rewrote nothing, so there is nothing to preserve; the value claim puts the kernel program's run with its
  result named (KernelRun, KValue) beside the reference's generated run, and closes with the layer agreement
  (Agree) applied twice.
-/
import proofs.«152795_j88356067213584_1_alg».proof.Defs
import proofs.«152795_j88356067213584_1_alg».proof.Proof.Gen.Kernel
import proofs.«152795_j88356067213584_1_alg».proof.Proof.Gen.Kernel.Skeleton
import proofs.«152795_j88356067213584_1_alg».proof.Proof.Gen.Kernel.Launch
import proofs.«152795_j88356067213584_1_alg».proof.Proof.Gen.Kernel.Points
import proofs.«152795_j88356067213584_1_alg».proof.Proof.Gen.Kernel.Frame
import proofs.«152795_j88356067213584_1_alg».proof.Proof.Gen.KernelIdeal
import proofs.«152795_j88356067213584_1_alg».proof.Proof.Gen.KernelIdeal.Skeleton
import proofs.«152795_j88356067213584_1_alg».proof.Proof.Gen.KernelIdeal.Launch
import proofs.«152795_j88356067213584_1_alg».proof.Proof.Gen.KernelIdeal.Points
import proofs.«152795_j88356067213584_1_alg».proof.Proof.Gen.KernelIdeal.Frame
import proofs.«152795_j88356067213584_1_alg».proof.Proof.Gen.ReferenceIdeal
import proofs.«152795_j88356067213584_1_alg».proof.Proof.Gen.ReferenceIdeal.Run
import proofs.«152795_j88356067213584_1_alg».proof.Proof.Gen.ReferenceIdeal.Read
import proofs.«152795_j88356067213584_1_alg».proof.Proof.Gen.Pre_finite_inputs
import proofs.«152795_j88356067213584_1_alg».proof.Proof.KernelRun
import proofs.«152795_j88356067213584_1_alg».proof.Proof.KValue
import proofs.«152795_j88356067213584_1_alg».proof.Proof.RefLayerDefs
import proofs.«152795_j88356067213584_1_alg».proof.Proof.Agree
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel program's result array is the reference's result stage of the same arguments: each layer's sums over
    its kernel's messages are the reference's layer (Agree.layer_eq), the first feeding the second through the
    rectifier, the gate and the inverse root of the degree being one array on both sides. -/
theorem result_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W11 m ρ c (Proc.devRef .tc Cert.KernelIdeal.main_v128)
      = Cert.ReferenceIdeal.Read.val_main_v160 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [Cert.KernelIdeal.Whole.result_eq, Cert.ReferenceIdeal.RefLayer.v160_eq_layer, Cert.ReferenceIdeal.RefLayer.v87_eq_relu,
    Cert.ReferenceIdeal.RefLayer.v86_eq_layer]
  have h1 := Cert.Agree.layer_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.KernelIdeal.Whole.G m c) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg4)) (m ((c.tc : Thread Cert.KernelIdeal.nD Cert.KernelIdeal.τ).loc Cert.KernelIdeal.main_arg8))
    (Cert.KernelIdeal.Whole.M0 m ρ c) (Cert.KernelIdeal.Whole.M0_apply m ρ c)
  have hH : Cert.KernelIdeal.Whole.H m ρ c = Cert.ReferenceIdeal.RefLayer.relu (F := Ideal)
      (Cert.ReferenceIdeal.RefLayer.layer (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.KernelIdeal.Whole.G m c) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) :=
    (congrArg (Cert.KernelIdeal.KV.relu (F := Ideal)) h1).trans (Cert.Agree.relu_eq _)
  have h2 := Cert.Agree.layer_eq (Cert.KernelIdeal.Whole.H m ρ c) (m ((c.tc : Thread Cert.KernelIdeal.nD Cert.KernelIdeal.τ).loc Cert.KernelIdeal.main_arg1)) (Cert.KernelIdeal.Whole.G m c) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg6)) (m ((c.tc : Thread Cert.KernelIdeal.nD Cert.KernelIdeal.τ).loc Cert.KernelIdeal.main_arg10))
    (Cert.KernelIdeal.Whole.M1 m ρ c) (Cert.KernelIdeal.Whole.M1_apply m ρ c)
  refine h2.trans ?_
  rw [hH]
  rfl

/-- At the extended reals the two programs, run from memories that agree on the arguments, end with equal results. -/
theorem algebraic : Cert.algebraic_KernelIdeal_ReferenceIdeal := by
  intro m ρ m' ρ' _ hagree
  refine ⟨fun c => Cert.KernelIdeal.Gen.W11 m ρ c (Proc.devRef .tc Cert.KernelIdeal.main_v128), Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v160_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1, (hagree c).2.2.2.2.2.2.2.2.2.1,
    (hagree c).2.2.2.2.2.2.2.2.2.2]
  exact (result_agree m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
